-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v94)) (v1 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S2048x4096 : Shape := ⟨2, ![2048, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096 .f32) (main_arg2 : FVec F S4096 .f32) (main_arg3 : IVec S2048x4096 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S2048x4096 : Shape := ⟨2, ![2048, 4096]⟩
abbrev S_ : Shape := ⟨0, ![]⟩
abbrev S4095 : Shape := ⟨1, ![4095]⟩
abbrev S4095x1 : Shape := ⟨2, ![4095, 1]⟩
abbrev S4095x2 : Shape := ⟨2, ![4095, 2]⟩
abbrev S1 : Shape := ⟨1, ![1]⟩
abbrev S2048x1 : Shape := ⟨2, ![2048, 1]⟩
abbrev S2048 : Shape := ⟨1, ![2048]⟩
abbrev S2048x4095 : Shape := ⟨2, ![2048, 4095]⟩
abbrev S8386560 : Shape := ⟨1, ![8386560]⟩
abbrev S8386560x1 : Shape := ⟨2, ![8386560, 1]⟩
abbrev S8386560x2 : Shape := ⟨2, ![8386560, 2]⟩
abbrev S2x8x128 : Shape := ⟨3, ![2, 8, 128]⟩
abbrev S512x4096 : Shape := ⟨2, ![512, 4096]⟩
abbrev S1x8x128 : Shape := ⟨3, ![1, 8, 128]⟩
abbrev S8x128 : Shape := ⟨2, ![8, 128]⟩
abbrev S512 : Shape := ⟨1, ![512]⟩
abbrev S512x1 : Shape := ⟨2, ![512, 1]⟩
abbrev S1x1 : Shape := ⟨2, ![1, 1]⟩
abbrev S1x1x1 : Shape := ⟨3, ![1, 1, 1]⟩

abbrev nBuf : Space → Nat
  | .hbm => 130
  | .vmem => 6
  | .smem => 0
  | _ => 0

abbrev hbmTy0_0 (i : Nat) : BufTy := match i % 128 with
  | 0 => ⟨S4096x4096, .f32⟩
  | 1 => ⟨S4096, .f32⟩
  | 2 => ⟨S4096, .f32⟩
  | 3 => ⟨S2048x4096, .i32⟩
  | 4 => ⟨S4096, .i32⟩
  | 5 => ⟨S_, .f32⟩
  | 6 => ⟨S4096x4096, .f32⟩
  | 7 => ⟨S4095, .i32⟩
  | 8 => ⟨S4095, .i32⟩
  | 9 => ⟨S_, .i32⟩
  | 10 => ⟨S4095, .i32⟩
  | 11 => ⟨S4095, .i1⟩
  | 12 => ⟨S_, .i32⟩
  | 13 => ⟨S4095, .i32⟩
  | 14 => ⟨S4095, .i32⟩
  | 15 => ⟨S4095, .i32⟩
  | 16 => ⟨S_, .i32⟩
  | 17 => ⟨S4095, .i32⟩
  | 18 => ⟨S4095, .i1⟩
  | 19 => ⟨S_, .i32⟩
  | 20 => ⟨S4095, .i32⟩
  | 21 => ⟨S4095, .i32⟩
  | 22 => ⟨S4095, .i32⟩
  | 23 => ⟨S4095x1, .i32⟩
  | 24 => ⟨S4095x1, .i32⟩
  | 25 => ⟨S4095x2, .i32⟩
  | 26 => ⟨S_, .f32⟩
  | 27 => ⟨S4095, .f32⟩
  | 28 => ⟨S4096x4096, .f32⟩
  | 29 => ⟨S1, .f32⟩
  | 30 => ⟨S_, .f32⟩
  | 31 => ⟨S1, .f32⟩
  | 32 => ⟨S_, .f32⟩
  | 33 => ⟨S_, .f32⟩
  | 34 => ⟨S4095, .i32⟩
  | 35 => ⟨S4095, .i32⟩
  | 36 => ⟨S_, .i32⟩
  | 37 => ⟨S4095, .i32⟩
  | 38 => ⟨S4095, .i1⟩
  | 39 => ⟨S_, .i32⟩
  | 40 => ⟨S4095, .i32⟩
  | 41 => ⟨S4095, .i32⟩
  | 42 => ⟨S4095, .i32⟩
  | 43 => ⟨S_, .i32⟩
  | 44 => ⟨S4095, .i32⟩
  | 45 => ⟨S4095, .i1⟩
  | 46 => ⟨S_, .i32⟩
  | 47 => ⟨S4095, .i32⟩
  | 48 => ⟨S4095, .i32⟩
  | 49 => ⟨S4095, .i32⟩
  | 50 => ⟨S4095x1, .i32⟩
  | 51 => ⟨S4095x1, .i32⟩
  | 52 => ⟨S4095x2, .i32⟩
  | 53 => ⟨S4095, .f32⟩
  | 54 => ⟨S_, .f32⟩
  | 55 => ⟨S_, .f32⟩
  | 56 => ⟨S_, .f32⟩
  | 57 => ⟨S_, .f32⟩
  | 58 => ⟨S4096, .f32⟩
  | 59 => ⟨S_, .i32⟩
  | 60 => ⟨S1, .i32⟩
  | 61 => ⟨S_, .f32⟩
  | 62 => ⟨S4096, .f32⟩
  | 63 => ⟨S2048x1, .i32⟩
  | 64 => ⟨S2048, .i32⟩
  | 65 => ⟨S_, .i32⟩
  | 66 => ⟨S2048, .i32⟩
  | 67 => ⟨S2048, .i1⟩
  | 68 => ⟨S_, .i32⟩
  | 69 => ⟨S2048, .i32⟩
  | 70 => ⟨S2048, .i32⟩
  | 71 => ⟨S2048, .i32⟩
  | 72 => ⟨S2048x1, .i32⟩
  | 73 => ⟨S_, .f32⟩
  | 74 => ⟨S2048, .f32⟩
  | 75 => ⟨S4096, .f32⟩
  | 76 => ⟨S_, .f32⟩
  | 77 => ⟨S4096, .f32⟩
  | 78 => ⟨S_, .i32⟩
  | 79 => ⟨S1, .i32⟩
  | 80 => ⟨S_, .f32⟩
  | 81 => ⟨S4096, .f32⟩
  | 82 => ⟨S2048x1, .i32⟩
  | 83 => ⟨S2048, .i32⟩
  | 84 => ⟨S_, .i32⟩
  | 85 => ⟨S2048, .i32⟩
  | 86 => ⟨S2048, .i1⟩
  | 87 => ⟨S_, .i32⟩
  | 88 => ⟨S2048, .i32⟩
  | 89 => ⟨S2048, .i32⟩
  | 90 => ⟨S2048, .i32⟩
  | 91 => ⟨S2048x1, .i32⟩
  | 92 => ⟨S_, .f32⟩
  | 93 => ⟨S2048, .f32⟩
  | 94 => ⟨S4096, .f32⟩
  | 95 => ⟨S2048x4095, .i32⟩
  | 96 => ⟨S8386560, .i32⟩
  | 97 => ⟨S2048x4095, .i32⟩
  | 98 => ⟨S8386560, .i32⟩
  | 99 => ⟨S_, .i32⟩
  | 100 => ⟨S8386560, .i32⟩
  | 101 => ⟨S8386560, .i1⟩
  | 102 => ⟨S_, .i32⟩
  | 103 => ⟨S8386560, .i32⟩
  | 104 => ⟨S8386560, .i32⟩
  | 105 => ⟨S8386560, .i32⟩
  | 106 => ⟨S_, .i32⟩
  | 107 => ⟨S8386560, .i32⟩
  | 108 => ⟨S8386560, .i1⟩
  | 109 => ⟨S_, .i32⟩
  | 110 => ⟨S8386560, .i32⟩
  | 111 => ⟨S8386560, .i32⟩
  | 112 => ⟨S8386560, .i32⟩
  | 113 => ⟨S8386560x1, .i32⟩
  | 114 => ⟨S8386560x1, .i32⟩
  | 115 => ⟨S8386560x2, .i32⟩
  | 116 => ⟨S_, .f32⟩
  | 117 => ⟨S8386560, .f32⟩
  | 118 => ⟨S4096x4096, .f32⟩
  | 119 => ⟨S2x8x128, .f32⟩
  | 120 => ⟨S_, .f32⟩
  | 121 => ⟨S_, .f32⟩
  | 122 => ⟨S4096, .f32⟩
  | 123 => ⟨S_, .f32⟩
  | 124 => ⟨S_, .f32⟩
  | 125 => ⟨S4096, .f32⟩
  | 126 => ⟨S_, .f32⟩
  | 127 => ⟨S_, .f32⟩
  | _ => ⟨S4096x4096, .f32⟩

abbrev hbmTy0_1 (i : Nat) : BufTy := match i % 128 with
  | 0 => ⟨S_, .f32⟩
  | 1 => ⟨S_, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S1x8x128, .f32⟩
  | .local _ .vmem, ⟨5, _⟩ => ⟨S1x8x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_c_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_c_10 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_12 : Ref sig .tc := ⟨.hbm, 65, rfl⟩
abbrev main_v47 : Ref sig .tc := ⟨.hbm, 66, rfl⟩
abbrev main_v48 : Ref sig .tc := ⟨.hbm, 67, rfl⟩
abbrev main_c_13 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_c_16 : Ref sig .tc := ⟨.hbm, 78, rfl⟩
abbrev main_v56 : Ref sig .tc := ⟨.hbm, 79, rfl⟩
abbrev main_cst_17 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_18 : Ref sig .tc := ⟨.hbm, 84, rfl⟩
abbrev main_v60 : Ref sig .tc := ⟨.hbm, 85, rfl⟩
abbrev main_v61 : Ref sig .tc := ⟨.hbm, 86, rfl⟩
abbrev main_c_19 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_20 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_21 : Ref sig .tc := ⟨.hbm, 99, rfl⟩
abbrev main_v72 : Ref sig .tc := ⟨.hbm, 100, rfl⟩
abbrev main_v73 : Ref sig .tc := ⟨.hbm, 101, rfl⟩
abbrev main_c_22 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_23 : Ref sig .tc := ⟨.hbm, 106, rfl⟩
abbrev main_v77 : Ref sig .tc := ⟨.hbm, 107, rfl⟩
abbrev main_v78 : Ref sig .tc := ⟨.hbm, 108, rfl⟩
abbrev main_c_24 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_25 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_26 : Ref sig .tc := ⟨.hbm, 120, rfl⟩
abbrev main_v88 : Ref sig .tc := ⟨.hbm, 121, rfl⟩
abbrev main_v89 : Ref sig .tc := ⟨.hbm, 122, rfl⟩
abbrev main_cst_27 : Ref sig .tc := ⟨.hbm, 123, rfl⟩
abbrev main_v90 : Ref sig .tc := ⟨.hbm, 124, rfl⟩
abbrev main_v91 : Ref sig .tc := ⟨.hbm, 125, rfl⟩
abbrev main_cst_28 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S4096x4096 : S_.BroadcastsInDim S4096x4096 (![] : Fin 0 → Fin S4096x4096.rank)
  slices_S4096_S4095_0 : S4096.Slices ![0] S4095
  slices_S4096_S4095_1 : S4096.Slices ![1] S4095
  bcast_S_S4095 : S_.BroadcastsInDim S4095 (![] : Fin 0 → Fin S4095.rank)
  bcast_S4095_S4095x1_0 : S4095.BroadcastsInDim S4095x1 (![0] : Fin 1 → Fin S4095x1.rank)
  concatenates_S4095x1_S4095x1_S4095x2_d1 : Shape.Concatenates [S4095x1, S4095x1] S4095x2 1
  slices_S4096_S1_0 : S4096.Slices ![0] S1
  shapeCasts_S1_S_ : S1.ShapeCasts S_
  slices_S4096_S1_4095 : S4096.Slices ![4095] S1
  reducesTo_S4095_S_d0 : S4095.ReducesTo [0] S_
  h_S_ : 0 < S_.numel
  bcast_S_S4096 : S_.BroadcastsInDim S4096 (![] : Fin 0 → Fin S4096.rank)
  bcast_S_S1 : S_.BroadcastsInDim S1 (![] : Fin 0 → Fin S1.rank)
  slices_S2048x4096_S2048x1_0_0 : S2048x4096.Slices ![0, 0] S2048x1
  shapeCasts_S2048x1_S2048 : S2048x1.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  slices_S2048x4096_S2048x1_0_4095 : S2048x4096.Slices ![0, 4095] S2048x1
  slices_S2048x4096_S2048x4095_0_0 : S2048x4096.Slices ![0, 0] S2048x4095
  shapeCasts_S2048x4095_S8386560 : S2048x4095.ShapeCasts S8386560
  slices_S2048x4096_S2048x4095_0_1 : S2048x4096.Slices ![0, 1] S2048x4095
  bcast_S_S8386560 : S_.BroadcastsInDim S8386560 (![] : Fin 0 → Fin S8386560.rank)
  bcast_S8386560_S8386560x1_0 : S8386560.BroadcastsInDim S8386560x1 (![0] : Fin 1 → Fin S8386560x1.rank)
  concatenates_S8386560x1_S8386560x1_S8386560x2_d1 : Shape.Concatenates [S8386560x1, S8386560x1] S8386560x2 1
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  reduces_S512x4096_S512 : S512x4096.Reduces [1] S512
  shapeCasts_S512_S512x1 : S512.ShapeCasts S512x1
  reduces_S512x1_S1 : S512x1.Reduces [0] S1
  shapeCasts_S1_S1x1 : S1.ShapeCasts S1x1
  inb_S1x8x128_S1x1x1_0_0_0 : ∀ a, (![0, 0, 0] : Fin 3 → Nat) a + S1x1x1.size a ≤ S1x8x128.size a
  h_S1x1x1 : 0 < S1x1x1.numel
  shapeCasts_S1x1x1_S1x1 : S1x1x1.ShapeCasts S1x1
  shapeCasts_S1x1_S1x1x1 : S1x1.ShapeCasts S1x1x1
  reducesTo_S2x8x128_S_d0_1_2 : S2x8x128.ReducesTo [0, 1, 2] S_
  reducesTo_S4096_S_d0 : S4096.ReducesTo [0] S_
  scatter_S4096x4096_S4095x2_S4095_n_01_01_1_wf : ScatterDims.WF S4096x4096 S4095x2 S4095 [] [0, 1] [0, 1] 1
  gather_S4096x4096_S4095x2_S4095_n_01_n_n_01_1_11_wf : GatherDims.WF S4096x4096 S4095x2 S4095 [] [0, 1] [] [0, 1] [] 1 ![1, 1]
  scatter_S4096_S1_S__n_0_0_0_wf : ScatterDims.WF S4096 S1 S_ [] [0] [0] 0
  scatter_S4096_S2048x1_S2048_n_0_0_1_wf : ScatterDims.WF S4096 S2048x1 S2048 [] [0] [0] 1
  scatter_S4096x4096_S8386560x2_S8386560_n_01_01_1_wf : ScatterDims.WF S4096x4096 S8386560x2 S8386560 [] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

def scatter_S4096x4096_S4095x2_S4095_n_01_01_1 : ScatterDims S4096x4096 S4095x2 S4095 where
  updateWindowDims := []
  insertedWindowDims := [0, 1]
  scatterDimsToOperandDims := [0, 1]
  indexVectorDim := 1
  wf := scatter_S4096x4096_S4095x2_S4095_n_01_01_1_wf
def gather_S4096x4096_S4095x2_S4095_n_01_n_n_01_1_11 : GatherDims S4096x4096 S4095x2 S4095 where
  offsetDims := []
  collapsedSliceDims := [0, 1]
  operandBatchingDims := []
  startIndicesBatchingDims := []
  startIndexMap := [0, 1]
  indexVectorDim := 1
  sliceSizes := ![1, 1]
  wf := gather_S4096x4096_S4095x2_S4095_n_01_n_n_01_1_11_wf
def scatter_S4096_S1_S__n_0_0_0 : ScatterDims S4096 S1 S_ where
  updateWindowDims := []
  insertedWindowDims := [0]
  scatterDimsToOperandDims := [0]
  indexVectorDim := 0
  wf := scatter_S4096_S1_S__n_0_0_0_wf
def scatter_S4096_S2048x1_S2048_n_0_0_1 : ScatterDims S4096 S2048x1 S2048 where
  updateWindowDims := []
  insertedWindowDims := [0]
  scatterDimsToOperandDims := [0]
  indexVectorDim := 1
  wf := scatter_S4096_S2048x1_S2048_n_0_0_1_wf
def scatter_S4096x4096_S8386560x2_S8386560_n_01_01_1 : ScatterDims S4096x4096 S8386560x2 S8386560 where
  updateWindowDims := []
  insertedWindowDims := [0, 1]
  scatterDimsToOperandDims := [0, 1]
  indexVectorDim := 1
  wf := scatter_S4096x4096_S8386560x2_S8386560_n_01_01_1_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v86) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v87) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096 : Shape := ⟨1, ![4096]⟩
abbrev S2048x4096 : Shape := ⟨2, ![2048, 4096]⟩
abbrev S_ : Shape := ⟨0, ![]⟩
abbrev S1 : Shape := ⟨1, ![1]⟩
abbrev S4095 : Shape := ⟨1, ![4095]⟩
abbrev S4095x1 : Shape := ⟨2, ![4095, 1]⟩
abbrev S4095x2 : Shape := ⟨2, ![4095, 2]⟩
abbrev S2048x1 : Shape := ⟨2, ![2048, 1]⟩
abbrev S2048 : Shape := ⟨1, ![2048]⟩
abbrev S2048x4095 : Shape := ⟨2, ![2048, 4095]⟩
abbrev S8386560 : Shape := ⟨1, ![8386560]⟩
abbrev S8386560x1 : Shape := ⟨2, ![8386560, 1]⟩
abbrev S8386560x2 : Shape := ⟨2, ![8386560, 2]⟩

abbrev nBuf : Space → Nat
  | .hbm => 114
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096, .f32⟩
  | .hbm, ⟨3, _⟩ => ⟨S2048x4096, .i32⟩
  | .hbm, ⟨4, _⟩ => ⟨S4096, .i32⟩
  | .hbm, ⟨5, _⟩ => ⟨S_, .f32⟩
  | .hbm, ⟨6, _⟩ => ⟨S4096, .f32⟩
  | .hbm, ⟨7, _⟩ => ⟨S_, .i32⟩
  | .hbm, ⟨8, _⟩ => ⟨S1, .i32⟩
  | .hbm, ⟨9, _⟩ => ⟨S_, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S_, .i32⟩
  | .hbm, ⟨14, _⟩ => ⟨S1, .i32⟩
  | .hbm, ⟨15, _⟩ => ⟨S_, .f32⟩
  | .hbm, ⟨16, _⟩ => ⟨S4096, .f32⟩
  | .hbm, ⟨17, _⟩ => ⟨S_, .f32⟩
  | .hbm, ⟨18, _⟩ => ⟨S4096x4096, .f32⟩
  | .hbm, ⟨19, _⟩ => ⟨S4095, .i32⟩
  | .hbm, ⟨20, _⟩ => ⟨S4095, .i32⟩
  | .hbm, ⟨21, _⟩ => ⟨S_, .i32⟩
  | .hbm, ⟨22, _⟩ => ⟨S4095, .i32⟩
  | .hbm, ⟨23, _⟩ => ⟨S4095, .i1⟩
  | .hbm, ⟨24, _⟩ => ⟨S_, .i32⟩
  | .hbm, ⟨25, _⟩ => ⟨S4095, .i32⟩
  | .hbm, ⟨26, _⟩ => ⟨S4095, .i32⟩
  | .hbm, ⟨27, _⟩ => ⟨S4095, .i32⟩
  | .hbm, ⟨28, _⟩ => ⟨S_, .i32⟩
  | .hbm, ⟨29, _⟩ => ⟨S4095, .i32⟩
  | .hbm, ⟨30, _⟩ => ⟨S4095, .i1⟩
  | .hbm, ⟨31, _⟩ => ⟨S_, .i32⟩
  | .hbm, ⟨32, _⟩ => ⟨S4095, .i32⟩
  | .hbm, ⟨33, _⟩ => ⟨S4095, .i32⟩
  | .hbm, ⟨34, _⟩ => ⟨S4095, .i32⟩
  | .hbm, ⟨35, _⟩ => ⟨S4095x1, .i32⟩
  | .hbm, ⟨36, _⟩ => ⟨S4095x1, .i32⟩
  | .hbm, ⟨37, _⟩ => ⟨S4095x2, .i32⟩
  | .hbm, ⟨38, _⟩ => ⟨S_, .f32⟩
  | .hbm, ⟨39, _⟩ => ⟨S4095, .f32⟩
  | .hbm, ⟨40, _⟩ => ⟨S4096x4096, .f32⟩
  | .hbm, ⟨41, _⟩ => ⟨S4096, .f32⟩
  | .hbm, ⟨42, _⟩ => ⟨S_, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S4096x4096, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S2048x1, .i32⟩
  | .hbm, ⟨54, _⟩ => ⟨S2048, .i32⟩
  | .hbm, ⟨55, _⟩ => ⟨S_, .i32⟩
  | .hbm, ⟨56, _⟩ => ⟨S2048, .i32⟩
  | .hbm, ⟨57, _⟩ => ⟨S2048, .i1⟩
  | .hbm, ⟨58, _⟩ => ⟨S_, .i32⟩
  | .hbm, ⟨59, _⟩ => ⟨S2048, .i32⟩
  | .hbm, ⟨60, _⟩ => ⟨S2048, .i32⟩
  | .hbm, ⟨61, _⟩ => ⟨S2048, .i32⟩
  | .hbm, ⟨62, _⟩ => ⟨S2048x1, .i32⟩
  | .hbm, ⟨63, _⟩ => ⟨S_, .f32⟩
  | .hbm, ⟨64, _⟩ => ⟨S2048, .f32⟩
  | .hbm, ⟨65, _⟩ => ⟨S4096, .f32⟩
  | .hbm, ⟨66, _⟩ => ⟨S2048x1, .i32⟩
  | .hbm, ⟨67, _⟩ => ⟨S2048, .i32⟩
  | .hbm, ⟨68, _⟩ => ⟨S_, .i32⟩
  | .hbm, ⟨69, _⟩ => ⟨S2048, .i32⟩
  | .hbm, ⟨70, _⟩ => ⟨S2048, .i1⟩
  | .hbm, ⟨71, _⟩ => ⟨S_, .i32⟩
  | .hbm, ⟨72, _⟩ => ⟨S2048, .i32⟩
  | .hbm, ⟨73, _⟩ => ⟨S2048, .i32⟩
  | .hbm, ⟨74, _⟩ => ⟨S2048, .i32⟩
  | .hbm, ⟨75, _⟩ => ⟨S2048x1, .i32⟩
  | .hbm, ⟨76, _⟩ => ⟨S_, .f32⟩
  | .hbm, ⟨77, _⟩ => ⟨S2048, .f32⟩
  | .hbm, ⟨78, _⟩ => ⟨S4096, .f32⟩
  | .hbm, ⟨79, _⟩ => ⟨S2048x4095, .i32⟩
  | .hbm, ⟨80, _⟩ => ⟨S8386560, .i32⟩
  | .hbm, ⟨81, _⟩ => ⟨S2048x4095, .i32⟩
  | .hbm, ⟨82, _⟩ => ⟨S8386560, .i32⟩
  | .hbm, ⟨83, _⟩ => ⟨S_, .i32⟩
  | .hbm, ⟨84, _⟩ => ⟨S8386560, .i32⟩
  | .hbm, ⟨85, _⟩ => ⟨S8386560, .i1⟩
  | .hbm, ⟨86, _⟩ => ⟨S_, .i32⟩
  | .hbm, ⟨87, _⟩ => ⟨S8386560, .i32⟩
  | .hbm, ⟨88, _⟩ => ⟨S8386560, .i32⟩
  | .hbm, ⟨89, _⟩ => ⟨S8386560, .i32⟩
  | .hbm, ⟨90, _⟩ => ⟨S_, .i32⟩
  | .hbm, ⟨91, _⟩ => ⟨S8386560, .i32⟩
  | .hbm, ⟨92, _⟩ => ⟨S8386560, .i1⟩
  | .hbm, ⟨93, _⟩ => ⟨S_, .i32⟩
  | .hbm, ⟨94, _⟩ => ⟨S8386560, .i32⟩
  | .hbm, ⟨95, _⟩ => ⟨S8386560, .i32⟩
  | .hbm, ⟨96, _⟩ => ⟨S8386560, .i32⟩
  | .hbm, ⟨97, _⟩ => ⟨S8386560x1, .i32⟩
  | .hbm, ⟨98, _⟩ => ⟨S8386560x1, .i32⟩
  | .hbm, ⟨99, _⟩ => ⟨S8386560x2, .i32⟩
  | .hbm, ⟨100, _⟩ => ⟨S_, .f32⟩
  | .hbm, ⟨101, _⟩ => ⟨S8386560, .f32⟩
  | .hbm, ⟨102, _⟩ => ⟨S4096x4096, .f32⟩
  | .hbm, ⟨103, _⟩ => ⟨S4096, .f32⟩
  | .hbm, ⟨104, _⟩ => ⟨S_, .f32⟩
  | .hbm, ⟨105, _⟩ => ⟨S_, .f32⟩
  | .hbm, ⟨106, _⟩ => ⟨S4096, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S4096x4096, .f32⟩
  | .hbm, ⟨111, _⟩ => ⟨S_, .f32⟩
  | .hbm, ⟨112, _⟩ => ⟨S_, .f32⟩
  | .hbm, ⟨113, _⟩ => ⟨S_, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_c_2 : Ref sig .tc := ⟨.hbm, 13, rfl⟩
abbrev main_v5 : Ref sig .tc := ⟨.hbm, 14, rfl⟩
abbrev main_cst_3 : Ref sig .tc := ⟨.hbm, 15, rfl⟩
abbrev main_v6 : Ref sig .tc := ⟨.hbm, 16, rfl⟩
abbrev main_cst_4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_5 : Ref sig .tc := ⟨.hbm, 21, rfl⟩
abbrev main_v10 : Ref sig .tc := ⟨.hbm, 22, rfl⟩
abbrev main_v11 : Ref sig .tc := ⟨.hbm, 23, rfl⟩
abbrev main_c_6 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_7 : Ref sig .tc := ⟨.hbm, 28, rfl⟩
abbrev main_v15 : Ref sig .tc := ⟨.hbm, 29, rfl⟩
abbrev main_v16 : Ref sig .tc := ⟨.hbm, 30, rfl⟩
abbrev main_c_8 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_9 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_10 : Ref sig .tc := ⟨.hbm, 42, rfl⟩
abbrev main_v26 : Ref sig .tc := ⟨.hbm, 43, rfl⟩
abbrev main_v27 : Ref sig .tc := ⟨.hbm, 44, rfl⟩
abbrev main_cst_11 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_12 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_13 : Ref sig .tc := ⟨.hbm, 55, rfl⟩
abbrev main_v36 : Ref sig .tc := ⟨.hbm, 56, rfl⟩
abbrev main_v37 : Ref sig .tc := ⟨.hbm, 57, rfl⟩
abbrev main_c_14 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_15 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_16 : Ref sig .tc := ⟨.hbm, 68, rfl⟩
abbrev main_v46 : Ref sig .tc := ⟨.hbm, 69, rfl⟩
abbrev main_v47 : Ref sig .tc := ⟨.hbm, 70, rfl⟩
abbrev main_c_17 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_18 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_19 : Ref sig .tc := ⟨.hbm, 83, rfl⟩
abbrev main_v58 : Ref sig .tc := ⟨.hbm, 84, rfl⟩
abbrev main_v59 : Ref sig .tc := ⟨.hbm, 85, rfl⟩
abbrev main_c_20 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_21 : Ref sig .tc := ⟨.hbm, 90, rfl⟩
abbrev main_v63 : Ref sig .tc := ⟨.hbm, 91, rfl⟩
abbrev main_v64 : Ref sig .tc := ⟨.hbm, 92, rfl⟩
abbrev main_c_22 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_23 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_24 : Ref sig .tc := ⟨.hbm, 104, rfl⟩
abbrev main_v74 : Ref sig .tc := ⟨.hbm, 105, rfl⟩
abbrev main_v75 : Ref sig .tc := ⟨.hbm, 106, rfl⟩
abbrev main_cst_25 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_26 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S_S1 : S_.BroadcastsInDim S1 (![] : Fin 0 → Fin S1.rank)
  bcast_S_S4096x4096 : S_.BroadcastsInDim S4096x4096 (![] : Fin 0 → Fin S4096x4096.rank)
  slices_S4096_S4095_0 : S4096.Slices ![0] S4095
  slices_S4096_S4095_1 : S4096.Slices ![1] S4095
  bcast_S_S4095 : S_.BroadcastsInDim S4095 (![] : Fin 0 → Fin S4095.rank)
  bcast_S4095_S4095x1_0 : S4095.BroadcastsInDim S4095x1 (![0] : Fin 1 → Fin S4095x1.rank)
  concatenates_S4095x1_S4095x1_S4095x2_d1 : Shape.Concatenates [S4095x1, S4095x1] S4095x2 1
  reducesTo_S4096_S_d0 : S4096.ReducesTo [0] S_
  h_S_ : 0 < S_.numel
  reducesTo_S4096x4096_S_d0_1 : S4096x4096.ReducesTo [0, 1] S_
  slices_S2048x4096_S2048x1_0_0 : S2048x4096.Slices ![0, 0] S2048x1
  shapeCasts_S2048x1_S2048 : S2048x1.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  slices_S2048x4096_S2048x1_0_4095 : S2048x4096.Slices ![0, 4095] S2048x1
  slices_S2048x4096_S2048x4095_0_0 : S2048x4096.Slices ![0, 0] S2048x4095
  shapeCasts_S2048x4095_S8386560 : S2048x4095.ShapeCasts S8386560
  slices_S2048x4096_S2048x4095_0_1 : S2048x4096.Slices ![0, 1] S2048x4095
  bcast_S_S8386560 : S_.BroadcastsInDim S8386560 (![] : Fin 0 → Fin S8386560.rank)
  bcast_S8386560_S8386560x1_0 : S8386560.BroadcastsInDim S8386560x1 (![0] : Fin 1 → Fin S8386560x1.rank)
  concatenates_S8386560x1_S8386560x1_S8386560x2_d1 : Shape.Concatenates [S8386560x1, S8386560x1] S8386560x2 1
  scatter_S4096_S1_S__n_0_0_0_wf : ScatterDims.WF S4096 S1 S_ [] [0] [0] 0
  scatter_S4096x4096_S4095x2_S4095_n_01_01_1_wf : ScatterDims.WF S4096x4096 S4095x2 S4095 [] [0, 1] [0, 1] 1
  scatter_S4096_S2048x1_S2048_n_0_0_1_wf : ScatterDims.WF S4096 S2048x1 S2048 [] [0] [0] 1
  scatter_S4096x4096_S8386560x2_S8386560_n_01_01_1_wf : ScatterDims.WF S4096x4096 S8386560x2 S8386560 [] [0, 1] [0, 1] 1

variable [Facts₀]

def scatter_S4096_S1_S__n_0_0_0 : ScatterDims S4096 S1 S_ where
  updateWindowDims := []
  insertedWindowDims := [0]
  scatterDimsToOperandDims := [0]
  indexVectorDim := 0
  wf := scatter_S4096_S1_S__n_0_0_0_wf
def scatter_S4096x4096_S4095x2_S4095_n_01_01_1 : ScatterDims S4096x4096 S4095x2 S4095 where
  updateWindowDims := []
  insertedWindowDims := [0, 1]
  scatterDimsToOperandDims := [0, 1]
  indexVectorDim := 1
  wf := scatter_S4096x4096_S4095x2_S4095_n_01_01_1_wf
def scatter_S4096_S2048x1_S2048_n_0_0_1 : ScatterDims S4096 S2048x1 S2048 where
  updateWindowDims := []
  insertedWindowDims := [0]
  scatterDimsToOperandDims := [0]
  indexVectorDim := 1
  wf := scatter_S4096_S2048x1_S2048_n_0_0_1_wf
def scatter_S4096x4096_S8386560x2_S8386560_n_01_01_1 : ScatterDims S4096x4096 S8386560x2 S8386560 where
  updateWindowDims := []
  insertedWindowDims := [0, 1]
  scatterDimsToOperandDims := [0, 1]
  indexVectorDim := 1
  wf := scatter_S4096x4096_S8386560x2_S8386560_n_01_01_1_wf

class Facts : Prop extends Facts₀ where

variable [Facts]
-- ==== Proof.LibRowReduce.lean ====
/-
  Reductions along the rows of a matrix read at a row, on the extended reals (generic in the extents, imports only the
  library): the reduced index with the lane coordinate put back (`lift_row`, which also serves the host's reduce over
  the same axis), a kernel's lane maximum and lane sum over the last axis of an [a, b] array as the fold of max from the
  accumulator's value, or the sum, over the row's entries; and joining the initial value once more onto a maximum
  folded from it changes nothing.
-/
import Idealize.ShloMosaic.PureOps.Ideal.Laws
import Idealize.ShloMosaic.PureOps.Reduce
import Idealize.ShloMosaic.Lib.ValueIdx

noncomputable section

namespace Cert.LibRowReduce

open Idealize.ShloMosaic Idealize.ShloMosaic.ValueIdx

variable {a b : ℕ}

/-- The reduced index p with the lane coordinate l put back is (p, l). -/
theorem lift_row (h : (⟨2, ![a, b]⟩ : Shape).Reduces [1] (⟨1, ![a]⟩ : Shape)) (p : Fin a)
    (l : Fin ((⟨2, ![a, b]⟩ : Shape).size 1)) : h.lift (ix1 p) l = ix2 p (⟨l.val, l.isLt⟩ : Fin b) := by
  funext c; apply Fin.ext
  fin_cases c <;> rfl

/-- A kernel's lane maximum over the last axis, at row p: the fold of max from the accumulator's value over the row. -/
theorem laneMax_apply (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun l => src (ix2 p l)) := by
  refine (Ideal.multiReduction_maximumf_single src acc h hφ hacc (ix1 p)).trans ?_
  exact congrArg (fun f => Finset.fold max (Ideal.ofBits .f32 acc) f (Finset.univ : Finset (Fin b)))
    (funext fun l => congrArg src (lift_row h p l))

/-- A kernel's lane sum over the last axis, at row p: the sum over the row. -/
theorem laneSum_apply (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ l : Fin b, src (ix2 p l) := by
  refine (Ideal.multiReduction_add_single src acc h hφ hacc (ix1 p)).trans ?_
  exact Finset.sum_congr rfl fun l _ => congrArg src (lift_row h p l)

/-- A maximum folded from an initial value is above it, so joining the initial value once more changes nothing. -/
theorem max_fold_self {ι : Type*} (s : Finset ι) (c : EReal) (f : ι → EReal) : max c (s.fold max c f) = s.fold max c f :=
  max_eq_right (Finset.le_fold_max c |>.mpr (Or.inl le_rfl))

end Cert.LibRowReduce

end
-- ==== Proof.LibColumns.lean ====
/-
  Reductions down a column, read at an index on the extended reals.

  A kernel reduces an [n, 1] or [n, c] array over its ROW axis (axis 0): the maximum of a column is the fold of `max`
  from the initial word over the `n` rows, the sum of a column is the sum over the `n` rows. A host program reduces an
  [a, n, 1] array over its MIDDLE axis: the maximum of row block `b` is the same fold over the `n` positions. In every
  case the source index over a result index, with the reduced coordinate `k` put back, is computed coordinate by
  coordinate. Generic in the extents.
-/
import Idealize.ShloMosaic.Lib.Pipeline.Value
import Idealize.ShloMosaic.Lib.ValueIdx
import Idealize.ShloMosaic.PureOps.Ideal.Laws
import Idealize.ShloMosaic.PureOps.Reduce

noncomputable section

namespace Cert.LibColumns

open Idealize.ShloMosaic Idealize.ShloMosaic.ValueIdx

variable {a n c : ℕ}

/-- Over the one result index of an [n, 1] → [1] reduction, row `k` is the source index (k, 0). -/
theorem lift_col1 (h : (⟨2, ![n, 1]⟩ : Shape).Reduces [0] ⟨1, ![1]⟩) (k : Fin ((⟨2, ![n, 1]⟩ : Shape).size 0)) :
    h.lift (ix1 (0 : Fin 1)) k = ix2 (⟨k.val, k.isLt⟩ : Fin n) (0 : Fin 1) := by
  funext ax; apply Fin.ext
  match ax with
  | ⟨0, _⟩ => rfl
  | ⟨1, _⟩ => rfl

/-- Over result index `d` of an [n, c] → [c] reduction, row `k` is the source index (k, d). -/
theorem lift_col (h : (⟨2, ![n, c]⟩ : Shape).Reduces [0] ⟨1, ![c]⟩) (d : Fin c) (k : Fin ((⟨2, ![n, c]⟩ : Shape).size 0)) :
    h.lift (ix1 d) k = ix2 (⟨k.val, k.isLt⟩ : Fin n) d := by
  funext ax; apply Fin.ext
  match ax with
  | ⟨0, _⟩ => rfl
  | ⟨1, _⟩ => rfl

/-- Over result index (b, 0) of an [a, n, 1] → [a, 1] reduction, position `k` is the source index (b, k, 0). -/
theorem lift_mid (h : (⟨3, ![a, n, 1]⟩ : Shape).Reduces [1] ⟨2, ![a, 1]⟩) (b : Fin a)
    (k : Fin ((⟨3, ![a, n, 1]⟩ : Shape).size 1)) :
    h.lift (ix2 b (0 : Fin 1)) k = ix3 b (⟨k.val, k.isLt⟩ : Fin n) (0 : Fin 1) := by
  funext ax; apply Fin.ext
  match ax with
  | ⟨0, _⟩ => rfl
  | ⟨1, _⟩ => rfl
  | ⟨2, _⟩ => rfl

/-- Over result index (b, d) of an [a, n, c] → [a, c] reduction, position `k` is the source index (b, k, d). -/
theorem lift_mid_c (h : (⟨3, ![a, n, c]⟩ : Shape).Reduces [1] ⟨2, ![a, c]⟩) (b : Fin a) (d : Fin c)
    (k : Fin ((⟨3, ![a, n, c]⟩ : Shape).size 1)) :
    h.lift (ix2 b d) k = ix3 b (⟨k.val, k.isLt⟩ : Fin n) d := by
  funext ax; apply Fin.ext
  match ax with
  | ⟨0, _⟩ => rfl
  | ⟨1, _⟩ => rfl
  | ⟨2, _⟩ => rfl

/-- A kernel's maximum of a one-column array: the fold of `max` from the word `w` over the rows. -/
theorem multiReduction_maximumf_col1 (src : FVec Ideal ⟨2, ![n, 1]⟩ .f32) (w : BitVec 32)
    (h : (⟨2, ![n, 1]⟩ : Shape).Reduces [0] ⟨1, ![1]⟩) (hφ : FKind.Formats .f32)
    (hacc : w = FKind.maximumf.neutral .f32 hφ) :
    multiReduction .maximumf [0] ⟨1, ![1]⟩ src w h hφ hacc (ix1 (0 : Fin 1))
      = (Finset.univ : Finset (Fin n)).fold max (Ideal.ofBits .f32 w) (fun p => src (ix2 p (0 : Fin 1))) := by
  rw [multiReduction_maximumf_eq_fold]
  refine (h.fold_filter_drop_single _ _ src (ix1 (0 : Fin 1))).trans ?_
  exact congrArg (fun f => Finset.fold max (Ideal.ofBits .f32 w) f (Finset.univ : Finset (Fin n)))
    (funext fun k => congrArg src (lift_col1 h k))

/-- A kernel's sum of a one-column array: the sum over the rows. -/
theorem multiReduction_add_col1 (src : FVec Ideal ⟨2, ![n, 1]⟩ .f32) (w : BitVec 32)
    (h : (⟨2, ![n, 1]⟩ : Shape).Reduces [0] ⟨1, ![1]⟩) (hφ : FKind.Formats .f32)
    (hacc : w = FKind.add.neutral .f32 hφ) :
    multiReduction .add [0] ⟨1, ![1]⟩ src w h hφ hacc (ix1 (0 : Fin 1)) = ∑ p : Fin n, src (ix2 p (0 : Fin 1)) := by
  refine (Ideal.multiReduction_add_single src w h hφ hacc (ix1 (0 : Fin 1))).trans ?_
  exact Finset.sum_congr rfl fun k _ => congrArg src (lift_col1 h k)

/-- A kernel's column sums of an [n, c] array: at column `d` the sum over the rows. -/
theorem multiReduction_add_col (src : FVec Ideal ⟨2, ![n, c]⟩ .f32) (w : BitVec 32)
    (h : (⟨2, ![n, c]⟩ : Shape).Reduces [0] ⟨1, ![c]⟩) (hφ : FKind.Formats .f32)
    (hacc : w = FKind.add.neutral .f32 hφ) (d : Fin c) :
    multiReduction .add [0] ⟨1, ![c]⟩ src w h hφ hacc (ix1 d) = ∑ p : Fin n, src (ix2 p d) := by
  refine (Ideal.multiReduction_add_single src w h hφ hacc (ix1 d)).trans ?_
  exact Finset.sum_congr rfl fun k _ => congrArg src (lift_col h d k)

/-- The host's maximum over the middle axis of an [a, n, 1] array, from a scalar holding the word `w`: at (b, 0) the fold
    of `max` from `w` over the positions. -/
theorem hostReduce_maximumf_mid (x : FVec Ideal ⟨3, ![a, n, 1]⟩ .f32) (w : BitVec 32)
    (h' : (⟨3, ![a, n, 1]⟩ : Shape).ReducesTo [1] ⟨2, ![a, 1]⟩) (h : (⟨3, ![a, n, 1]⟩ : Shape).Reduces [1] ⟨2, ![a, 1]⟩)
    (hu : 0 < (⟨0, ![]⟩ : Shape).numel) (b : Fin a) :
    Host.reduce FloatOps.maximumf x (constant (F := Ideal) (⟨0, ![]⟩ : Shape) .f32 w) h' hu (ix2 b (0 : Fin 1))
      = (Finset.univ : Finset (Fin n)).fold max (Ideal.ofBits .f32 w) (fun t => x (ix3 b t (0 : Fin 1))) := by
  rw [Host.reduce_eq_fold_single FloatOps.maximumf x _ h' h hu]
  exact congrArg (fun f => Finset.fold max (Ideal.ofBits .f32 w) f (Finset.univ : Finset (Fin n)))
    (funext fun k => congrArg x (lift_mid h b k))

end Cert.LibColumns

end
-- ==== Proof.LibLayout.lean ====
/-
  Layout operations of small shapes read at an index, in the forms a row-wise normalisation needs: a vector made a
  column and a column spread over the columns of a matrix (the two halves of a `keepdims` reduction's broadcast), a
  row vector made a one-row matrix and spread over the rows, and a scalar spread over any shape. Each says which
  operand entry the result reads at `(p, c)`.
-/
import Idealize.ShloMosaic.Lib.ValueIdx
import Idealize.ShloMosaic.Lib.ValueLayout
import Idealize.ShloMosaic.Lib.Pipeline.Value

namespace Cert.LibLayout

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A scalar spread over any shape (`broadcast_in_dim` with no axis) reads the scalar everywhere. -/
theorem broadcastInDim_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun ax => ax.elim0

/-- A vector `[b]` made the one row of `[1, b]` (`broadcast_in_dim` on axis 1) reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row matrix `[1, b]` spread over `a` rows (`broadcast_in_dim` on axes 0, 1) reads, at `(p, c)`, the row at `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` (`broadcast_in_dim` on axis 0) reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` spread over `b` columns (`broadcast_in_dim` on axes 0, 1) reads, at `(p, c)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

end Cert.LibLayout
-- ==== Proof.KernelPayload.lean ====
/-
  The kernel body's arithmetic at the ideal instance. One grid point holds a tile a of 512 rows of the first matrix and
  the tile b of the same rows of the second. The body multiplies them entry by entry, sums each row over its 4096 lanes,
  sums the 512 row sums, and adds the total to the one accumulator entry it read: its stored value is
  acc + ∑ r, ∑ l, a (r, l) · b (r, l). The block it stores at the first point of a core is zero everywhere.
-/
import proofs.«146345_j45019847197007_2_alg».proof.Proof.Gen.KernelIdeal.Skeleton
import proofs.«146345_j45019847197007_2_alg».proof.Proof.LibRowReduce
import proofs.«146345_j45019847197007_2_alg».proof.Proof.LibColumns
import proofs.«146345_j45019847197007_2_alg».proof.Proof.LibLayout
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.TileValue

open Cert.KernelIdeal Cert.KernelIdeal.Gen

/-- The sum over a tile of the products of two tiles' entries. -/
def prodSum (a b : Vec Ideal S512x4096 .f32) : EReal := ∑ r : Fin 512, ∑ l : Fin 4096, a (ix2 r l) * b (ix2 r l)

/-- The stored accumulator entry: the entry read plus the tile's sum of products. -/
theorem pay2_apply (a b : Vec Ideal S512x4096 .f32) (acc : Vec Ideal S1x1x1 .f32) (z : S1x1x1.Idx) :
    k0_pay2 (F := Ideal) a b acc z = acc (ix3 (0 : Fin 1) (0 : Fin 1) (0 : Fin 1)) + prodSum a b := by
  have hz0 : (z 0).val = 0 := by have h : (z 0).val < 1 := (z 0).isLt; omega
  have hz1 : (z 1).val = 0 := by have h : (z 1).val < 1 := (z 1).isLt; omega
  have hz2 : (z 2).val = 0 := by have h : (z 2).val < 1 := (z 2).isLt; omega
  unfold k0_pay2
  refine (shapeCast_apply _ shapeCasts_S1x1_S1x1x1 z (ix2 (0 : Fin 1) (0 : Fin 1)) ?_).trans ?_
  · rw [Shape.rowMajor_val_two, Shape.rowMajor_val_three, hz0, hz1, hz2]
    rfl
  refine (addf_apply _ _ _).trans (congrArg₂ (· + ·) ?_ ?_)
  · exact shapeCast_apply acc shapeCasts_S1x1x1_S1x1 (ix2 (0 : Fin 1) (0 : Fin 1)) (ix3 (0 : Fin 1) (0 : Fin 1) (0 : Fin 1))
      (by rw [Shape.rowMajor_val_two, Shape.rowMajor_val_three]; rfl)
  · refine (LibLayout.shapeCast_a_a1_apply _ shapeCasts_S1_S1x1 (0 : Fin 1) (0 : Fin 1)).trans ?_
    refine (LibColumns.multiReduction_add_col1 _ _ reduces_S512x1_S1 _ _).trans ?_
    refine Finset.sum_congr rfl fun p _ => ?_
    refine (LibLayout.shapeCast_a_a1_apply _ shapeCasts_S512_S512x1 p (0 : Fin 1)).trans ?_
    refine (LibRowReduce.laneSum_apply _ _ reduces_S512x4096_S512 _ _ p).trans ?_
    refine Finset.sum_congr rfl fun l _ => ?_
    refine (mulf_apply _ _ _).trans ?_
    rw [shapeCast_self]

/-- The block stored at a core's first point is zero everywhere. -/
theorem pay1_apply (y : S1x8x128.Idx) : k0_pay1 (F := Ideal) y = 0 := by
  unfold k0_pay1
  show broadcast S8x128 (Scalar.ofBits (F := Ideal) .f32 0x00000000#32) _ = 0
  exact Ideal.ofBits_zero_f32

end Cert.KernelIdeal.TileValue

end
-- ==== Proof.KernelPieces.lean ====
/-
  What one grid point leaves in the output block, at the ideal instance. The block is [1, 8, 128]; only its entry
  (0, 0, 0) carries the running total. At the first point of a core the body first stores zeros over the whole block and
  then stores zero + the tile's sum of products at (0, 0, 0); at every later point it stores the entry it found there
  plus the tile's sum of products at (0, 0, 0), and leaves the other entries as it found them.
-/
import proofs.«146345_j45019847197007_2_alg».proof.Proof.Gen.KernelIdeal.Frame
import proofs.«146345_j45019847197007_2_alg».proof.Proof.KernelPayload
import Idealize.ShloMosaic.Lib.Pipeline.Value
import Idealize.ShloMosaic.Lib.WritesUnit
import Idealize.ShloMosaic.Lib.Tactic
import Idealize.ShloMosaic.Lib.ValueIdx

noncomputable section

open Idealize.ShloMosaic Idealize.ShloMosaic.TcCoe Idealize.SL.Sem Idealize.ShloMosaic.ValueIdx

namespace Cert.KernelIdeal.TileValue

open Cert.KernelIdeal Cert.KernelIdeal.Gen

theorem hz3 : (![0, 0, 0] : Fin 3 → Nat) = fun _ => 0 := funext fun a => by fin_cases a <;> rfl
theorem hz2 : (![0, 0] : Fin 2 → Nat) = fun _ => 0 := funext fun a => by fin_cases a <;> rfl

/-- An index of the block is the entry (0, 0, 0) exactly when its last two coordinates vanish: the condition under which
    it lies in the one-entry rectangle at the origin. -/
theorem corner_iff (y : S1x8x128.Idx) :
    (∀ a : Fin 3, (![0, 0, 0] : Fin 3 → ℕ) a ≤ (y a).val ∧ (y a).val < (![0, 0, 0] : Fin 3 → ℕ) a + (![1, 1, 1] : Fin 3 → ℕ) a)
      ↔ ((y 1).val = 0 ∧ (y 2).val = 0) := by
  constructor
  · intro h
    have h1 := (h 1).2
    have h2 := (h 2).2
    have e1 : (y 1).val < 0 + 1 := h1
    have e2 : (y 2).val < 0 + 1 := h2
    omega
  · intro h a
    have h0 : (y 0).val < 1 := (y 0).isLt
    match a with
    | ⟨0, _⟩ => exact ⟨Nat.zero_le _, (by show (y 0).val < 0 + 1; omega)⟩
    | ⟨1, _⟩ => exact ⟨Nat.zero_le _, (by show (y 1).val < 0 + 1; omega)⟩
    | ⟨2, _⟩ => exact ⟨Nat.zero_le _, (by show (y 2).val < 0 + 1; omega)⟩

/-- A later point: the entry (0, 0, 0) becomes what it held plus the tile's sum of products; the rest is kept. -/
theorem out_B (c : Dev nD) (i : grid0.Coords) (a2 : Memref sig .tc .vmem S512x4096 .f32) (h2 : a2.IsWhole)
    (a3 : Memref sig .tc .vmem S512x4096 .f32) (h3 : a3.IsWhole) (a4 : Memref sig .tc .vmem S1x8x128 .f32) (h4 : a4.IsWhole)
    (hc : ¬cond0_0 i) (x0 x1 : Vec Ideal S512x4096 .f32) (xo : Vec Ideal S1x8x128 .f32) (y : S1x8x128.Idx) :
    out0_B_2 (F := Ideal) c i a2 h2 a3 h3 a4 h4 hc x0 x1 xo y
      = if (y 1).val = 0 ∧ (y 2).val = 0 then xo (ix3 (0 : Fin 1) (0 : Fin 8) (0 : Fin 128)) + prodSum x0 x1 else xo y := by
  unfold out0_B_2 kernelRun0_B
  dsimp only
  rw [View.read_writes_cons_unit a4.view (h4.unread xo) inb_S1x8x128_S1x1x1_0_0_0 _ [] y (off' := ![0, 0, 0]) rfl]
  by_cases hy : (y 1).val = 0 ∧ (y 2).val = 0
  · rw [dif_pos ((corner_iff y).mpr hy), if_pos hy, pay2_apply]
    simp only [View.readAt_eq_ld, h2.read_unread, h3.read_unread, h4.read_unread, View.ld_unit_zero (S := S512x4096) hz2]
    refine congrArg (· + prodSum x0 x1) (congrArg xo (funext fun a => Fin.ext ?_))
    match a with
    | ⟨0, _⟩ => rfl
    | ⟨1, _⟩ => rfl
    | ⟨2, _⟩ => rfl
  · rw [dif_neg (fun h => hy ((corner_iff y).mp h)), if_neg hy, View.writes_nil, h4.read_unread]

/-- A core's first point: the entry (0, 0, 0) becomes zero plus the tile's sum of products; every other entry is zero. -/
theorem out_A (c : Dev nD) (i : grid0.Coords) (a2 : Memref sig .tc .vmem S512x4096 .f32) (h2 : a2.IsWhole)
    (a3 : Memref sig .tc .vmem S512x4096 .f32) (h3 : a3.IsWhole) (a4 : Memref sig .tc .vmem S1x8x128 .f32) (h4 : a4.IsWhole)
    (hc : cond0_0 i) (x0 x1 : Vec Ideal S512x4096 .f32) (y : S1x8x128.Idx) :
    out0_A_2 (F := Ideal) c i a2 h2 a3 h3 a4 h4 hc x0 x1 y
      = if (y 1).val = 0 ∧ (y 2).val = 0 then 0 + prodSum x0 x1 else 0 := by
  unfold out0_A_2 kernelRun0_A
  dsimp only
  sl_unfold_words
  rw [View.read_writes_cons_unit VO0_2 VO0_2.junk inb_S1x8x128_S1x1x1_0_0_0 _ _ y (off' := ![0, 0, 0]) rfl]
  by_cases hy : (y 1).val = 0 ∧ (y 2).val = 0
  · rw [dif_pos ((corner_iff y).mpr hy), if_pos hy, pay2_apply, View.readCov_eq_canon', View.canon_unit_zero hz3]
    simp only [View.readAt_eq_ld, h2.read_unread, h3.read_unread, View.ld_unit_zero (S := S512x4096) hz2]
    rw [pay1_apply]
  · rw [dif_neg (fun h => hy ((corner_iff y).mp h)), if_neg hy, View.read_writes_junk_eq_canon, View.canon_unit_zero hz3,
      pay1_apply]

end Cert.KernelIdeal.TileValue

end
-- ==== Proof.LibBlockSum.lean ====
/-
  Finite sums cut into consecutive blocks, in any commutative additive monoid (no finiteness of the terms is needed,
  so the laws hold on the extended reals): a sum over `a + b` indices is the sum over the first `a` of them plus the
  sum over the last `b`; and four consecutive blocks of one length, each block's sum added onto what came before,
  starting from zero, make the sum over all the indices.
-/
import Mathlib.Algebra.BigOperators.Fin

namespace Cert.LibBlockSum

open scoped BigOperators

variable {M : Type*} [AddCommMonoid M]

/-- A sum over `n = a + b` indices is the sum over the first `a` of them plus the sum over the remaining `b`. -/
theorem sum_split (a b n : ℕ) (h : a + b = n) (f : Fin n → M) :
    ∑ k : Fin n, f k
      = ∑ k : Fin a, f ⟨k.val, by have := k.isLt; omega⟩ + ∑ k : Fin b, f ⟨a + k.val, by have := k.isLt; omega⟩ := by
  subst h
  rw [Fin.sum_univ_add]
  rfl

/-- Four consecutive blocks of length `B`, accumulated from the left onto zero — `(((0 + S₀) + S₁) + S₂) + S₃` with
    `Sⱼ` the sum over block `j`, the indices `j·B … j·B + B - 1` — are the one sum over all `4·B` indices. -/
theorem acc4 (B n : ℕ) (h : 4 * B = n) (f : Fin n → M) :
    (((0 + ∑ k : Fin B, f ⟨k.val, by have := k.isLt; omega⟩)
          + ∑ k : Fin B, f ⟨B + k.val, by have := k.isLt; omega⟩)
        + ∑ k : Fin B, f ⟨2 * B + k.val, by have := k.isLt; omega⟩)
      + ∑ k : Fin B, f ⟨3 * B + k.val, by have := k.isLt; omega⟩
      = ∑ k : Fin n, f k := by
  rw [zero_add, sum_split (3 * B) B n (by omega) f,
    sum_split (2 * B) B (3 * B) (by omega) (fun k => f ⟨k.val, by have := k.isLt; omega⟩),
    sum_split B B (2 * B) (by omega) (fun k => f ⟨k.val, by have := k.isLt; omega⟩)]

end Cert.LibBlockSum
-- ==== Proof.SumBridge.lean ====
/-
  Sums regrouped the way a tiled accumulation produces them, in any commutative additive monoid (so on the extended
  reals, with no finiteness asked of the terms).

  A table f over [4096, 4096] is cut into eight tiles of 512 rows. Tile n's sum is the sum over its 512 rows of the
  rows' sums. An accumulator is reset before every fourth tile and adds the tile's sum after it: after tiles 3 and 7 it
  holds the sums of the upper and of the lower half of the table, and the two together are the sum of the whole table.
  An array over [2, 8, 128] that is zero off the corners (i, 0, 0) sums to the sum of its two corner entries.
-/
import Mathlib.Algebra.BigOperators.Fin
import Idealize.ShloMosaic.Lib.ValueIdx
import proofs.«146345_j45019847197007_2_alg».proof.Proof.LibBlockSum

namespace Cert.SumBridge

open Idealize.ShloMosaic Idealize.ShloMosaic.ValueIdx
open scoped BigOperators

variable {M : Type*} [AddCommMonoid M]

/-- A sum over the indices of a three-axis shape is the triple sum over its coordinates. -/
theorem sum_idx3 {n0 n1 n2 : ℕ} (f : (⟨3, ![n0, n1, n2]⟩ : Shape).Idx → M) :
    ∑ j, f j = ∑ a : Fin n0, ∑ b : Fin n1, ∑ c : Fin n2, f (ix3 a b c) := by
  let e : (Fin n0 × Fin n1 × Fin n2) ≃ (⟨3, ![n0, n1, n2]⟩ : Shape).Idx :=
    { toFun := fun p => ix3 p.1 p.2.1 p.2.2, invFun := fun j => (j 0, j 1, j 2), left_inv := fun _ => rfl,
      right_inv := fun j => (eq_ix3 j).symm }
  rw [← e.sum_comp f, Fintype.sum_prod_type]
  refine Finset.sum_congr rfl fun a _ => ?_
  rw [Fintype.sum_prod_type]
  rfl

/-- An array over [2, 8, 128] that holds a i at (i, 0, 0) and zero elsewhere sums to a 0 + a 1. -/
theorem sum_corner (a : Fin 2 → M) (O : (⟨3, ![2, 8, 128]⟩ : Shape).Idx → M)
    (h : ∀ (i : Fin 2) (p : Fin 8) (q : Fin 128), O (ix3 i p q) = if p.val = 0 ∧ q.val = 0 then a i else 0) :
    ∑ j, O j = a 0 + a 1 := by
  have e : ∀ i : Fin 2, ∑ p : Fin 8, ∑ q : Fin 128, O (ix3 i p q) = a i := fun i => by
    rw [Finset.sum_eq_single (0 : Fin 8), Finset.sum_eq_single (0 : Fin 128)]
    · rw [h]; exact if_pos ⟨rfl, rfl⟩
    · intro q _ hq
      rw [h, if_neg]
      intro hh; exact hq (Fin.ext hh.2)
    · intro h0; exact absurd (Finset.mem_univ _) h0
    · intro p _ hp
      refine Finset.sum_eq_zero fun q _ => ?_
      rw [h, if_neg]
      intro hh; exact hp (Fin.ext hh.1)
    · intro h0; exact absurd (Finset.mem_univ _) h0
  rw [sum_idx3, Fin.sum_univ_two, e 0, e 1]

/-- Row p's sum. -/
def rowSum (f : (⟨2, ![4096, 4096]⟩ : Shape).Idx → M) (p : Fin 4096) : M := ∑ c : Fin 4096, f (ix2 p c)

/-- Tile n's sum: the rows 512 n, …, 512 n + 511. -/
def tileSum (f : (⟨2, ![4096, 4096]⟩ : Shape).Idx → M) (n : ℕ) (hn : n < 8) : M :=
  ∑ r : Fin 512, rowSum f ⟨512 * n + r.val, by have := r.isLt; omega⟩

/-- The accumulator after tile n: reset to zero before every fourth tile, each tile's sum added. -/
def acc (f : (⟨2, ![4096, 4096]⟩ : Shape).Idx → M) : (n : ℕ) → n < 8 → M
  | 0, h => 0 + tileSum f 0 h
  | n + 1, h => if (n + 1) % 4 = 0 then 0 + tileSum f (n + 1) h else acc f n (by omega) + tileSum f (n + 1) h

theorem acc_reset (f : (⟨2, ![4096, 4096]⟩ : Shape).Idx → M) (n : ℕ) (h : n < 8) (h0 : n % 4 = 0) :
    acc f n h = 0 + tileSum f n h := by
  cases n with
  | zero => rfl
  | succ k => exact if_pos h0

theorem acc_step (f : (⟨2, ![4096, 4096]⟩ : Shape).Idx → M) (n : ℕ) (h : n < 8) (h0 : ¬n % 4 = 0) :
    acc f n h = acc f (n - 1) (by omega) + tileSum f n h := by
  cases n with
  | zero => exact absurd rfl h0
  | succ k => exact if_neg h0

/-- Four tiles from tile 4 i on, accumulated onto zero, are the sum of the 2048 rows from row 2048 i on. -/
theorem acc_half (f : (⟨2, ![4096, 4096]⟩ : Shape).Idx → M) (i : ℕ) (hi : i < 2) :
    acc f (4 * i + 3) (by omega) = ∑ k : Fin 2048, rowSum f ⟨2048 * i + k.val, by have := k.isLt; omega⟩ := by
  have h := LibBlockSum.acc4 512 2048 (by norm_num)
    (fun k : Fin 2048 => rowSum f ⟨2048 * i + k.val, by have := k.isLt; omega⟩)
  rw [← h]
  have e : ∀ (j : ℕ) (hj : j < 4), tileSum f (4 * i + j) (by omega)
      = ∑ r : Fin 512, rowSum f ⟨2048 * i + (j * 512 + r.val), by have := r.isLt; omega⟩ := fun j hj =>
    Finset.sum_congr rfl fun r _ => congrArg (rowSum f) (Fin.ext (by show 512 * (4 * i + j) + r.val = 2048 * i + (j * 512 + r.val); omega))
  rw [acc_step f (4 * i + 3) (by omega) (by omega), acc_step f (4 * i + 3 - 1) (by omega) (by omega),
    acc_step f (4 * i + 3 - 1 - 1) (by omega) (by omega), acc_reset f (4 * i + 3 - 1 - 1 - 1) (by omega) (by omega)]
  have e0 := e 0 (by omega); have e1 := e 1 (by omega); have e2 := e 2 (by omega); have e3 := e 3 (by omega)
  refine congrArg₂ (· + ·) (congrArg₂ (· + ·) (congrArg₂ (· + ·) (congrArg (0 + ·) ?_) ?_) ?_) ?_
  · refine (e0.trans ?_); exact Finset.sum_congr rfl fun r _ => congrArg (rowSum f) (Fin.ext (by show 2048 * i + (0 * 512 + r.val) = 2048 * i + r.val; omega))
  · refine (e1.trans ?_); exact Finset.sum_congr rfl fun r _ => congrArg (rowSum f) (Fin.ext (by show 2048 * i + (1 * 512 + r.val) = 2048 * i + (512 + r.val); omega))
  · refine (e2.trans ?_); exact Finset.sum_congr rfl fun r _ => congrArg (rowSum f) (Fin.ext (by show 2048 * i + (2 * 512 + r.val) = 2048 * i + (2 * 512 + r.val); rfl))
  · refine (e3.trans ?_); exact Finset.sum_congr rfl fun r _ => congrArg (rowSum f) (Fin.ext (by show 2048 * i + (3 * 512 + r.val) = 2048 * i + (3 * 512 + r.val); rfl))

/-- The accumulator's two flushed values together are the sum of the whole table. -/
theorem acc_total (f : (⟨2, ![4096, 4096]⟩ : Shape).Idx → M) :
    acc f 3 (by omega) + acc f 7 (by omega) = ∑ j, f j := by
  rw [sum_idx2, LibBlockSum.sum_split 2048 2048 4096 (by norm_num) (fun p => ∑ c : Fin 4096, f (ix2 p c))]
  refine congrArg₂ (· + ·) ((acc_half f 0 (by omega)).trans ?_) ((acc_half f 1 (by omega)).trans ?_)
  · exact Finset.sum_congr rfl fun k _ => congrArg (rowSum f) (Fin.ext (by show 2048 * 0 + k.val = k.val; omega))
  · exact Finset.sum_congr rfl fun k _ => congrArg (rowSum f) (Fin.ext (by show 2048 * 1 + k.val = 2048 + k.val; omega))

end Cert.SumBridge
-- ==== Proof.KernelAccum.lean ====
/-
  The output block after each grid point. Write f (r, l) = A (r, l) · B (r, l) for the table of products of the two
  4096 × 4096 arrays the region is entered with. Grid point n (n = 0, …, 7) reads rows 512 n, …, 512 n + 511 of both,
  so the sum of products of its two tiles is tile n's sum of f. By induction on the point, the block holds, at (0, 0, 0),
  the accumulator that is reset before every fourth tile and adds each tile's sum, and zero elsewhere.
-/
import proofs.«146345_j45019847197007_2_alg».proof.Proof.Gen.KernelIdeal.Frame
import proofs.«146345_j45019847197007_2_alg».proof.Proof.KernelPieces
import proofs.«146345_j45019847197007_2_alg».proof.Proof.SumBridge
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.TileValue

open Cert.KernelIdeal Cert.KernelIdeal.Gen

variable (m : (ℓ : Loc nD τ sig) → Buf (Elt Ideal) ℓ)

/-- The entry-by-entry product of two tables of extended reals. -/
def mulTable (A B : (⟨2, ![4096, 4096]⟩ : Shape).Idx → EReal) : (⟨2, ![4096, 4096]⟩ : Shape).Idx → EReal :=
  fun j => A j * B j

/-- The table of products of the two arrays the region stages, as it finds them. -/
def prodTable (c : Dev nD) : (⟨2, ![4096, 4096]⟩ : Shape).Idx → EReal :=
  mulTable (V m c main_arg0) (V m c main_v86)

theorem lt8 {n : ℕ} (h : n < cfg0.N) : n < 8 := lt_of_lt_of_eq h (show cfg0.N = 8 from N_0)

/-- Both input windows' block at point t starts at row 512 t, column 0. -/
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)

/-- Entry (r, l) of the first window's block at point t is entry (512 t + r, l) of the first array. -/
theorem iblk0_apply (c : Dev nD) (t : Fin cfg0.N) (r : Fin 512) (l : Fin 4096) :
    (iblk m c 0 t : Vec Ideal S512x4096 .f32) (ix2 r l)
      = (V m c main_arg0 : S4096x4096.Idx → EReal) (ix2 ⟨512 * t.val + r.val, by have := lt8 t.isLt; have := r.isLt; omega⟩ l) := by
  unfold iblk
  rw [View.read_apply]
  show V m c main_arg0 _ = V m c main_arg0 _
  congr 1
  funext a
  apply Fin.ext
  match a with
  | ⟨0, _⟩ => show win0_0.index t 0 * 512 + 1 * r.val = 512 * t.val + r.val; rw [(index0 t).1]; omega
  | ⟨1, _⟩ => show win0_0.index t 1 * 4096 + 1 * l.val = l.val; rw [(index0 t).2]; omega

/-- Entry (r, l) of the second window's block at point t is entry (512 t + r, l) of the second array. -/
theorem iblk1_apply (c : Dev nD) (t : Fin cfg0.N) (r : Fin 512) (l : Fin 4096) :
    (iblk m c 1 t : Vec Ideal S512x4096 .f32) (ix2 r l)
      = (V m c main_v86 : S4096x4096.Idx → EReal) (ix2 ⟨512 * t.val + r.val, by have := lt8 t.isLt; have := r.isLt; omega⟩ l) := by
  unfold iblk
  rw [View.read_apply]
  show V m c main_v86 _ = V m c main_v86 _
  congr 1
  funext a
  apply Fin.ext
  match a with
  | ⟨0, _⟩ => show win0_1.index t 0 * 512 + 1 * r.val = 512 * t.val + r.val; rw [(index1 t).1]; omega
  | ⟨1, _⟩ => show win0_1.index t 1 * 4096 + 1 * l.val = l.val; rw [(index1 t).2]; omega

/-- The sum of products of point t's two tiles is tile t's sum of the table of products. -/
theorem tile_eq (c : Dev nD) (t : Fin cfg0.N) :
    prodSum (iblk m c 0 t) (iblk m c 1 t) = SumBridge.tileSum (prodTable m c) t.val (lt8 t.isLt) := by
  unfold prodSum SumBridge.tileSum SumBridge.rowSum prodTable mulTable
  refine Finset.sum_congr rfl fun r _ => Finset.sum_congr rfl fun l _ => ?_
  exact congrArg₂ (· * ·) (iblk0_apply m c t r l) (iblk1_apply m c t r l)

/-- After point n the block holds the accumulator at (0, 0, 0) and zero elsewhere. -/
theorem outsAt_eq (c : Dev nD) : ∀ (n : ℕ) (h : n < cfg0.N) (y : S1x8x128.Idx),
    (outsAt0 m c n h : Vec Ideal S1x8x128 .f32) y
      = if (y 1).val = 0 ∧ (y 2).val = 0 then SumBridge.acc (prodTable m c) n (lt8 h) else 0
  | 0, h, y => by
    refine (congrFun (outsAt0_A m c ⟨0, h⟩ rfl) y).trans ?_
    refine (out_A c (grid0.coords ⟨0, h⟩) (ms0_0 ⟨0, h⟩) (hs0_0 ⟨0, h⟩) (ms0_1 ⟨0, h⟩) (hs0_1 ⟨0, h⟩) (ms0_2 ⟨0, h⟩)
      (hs0_2 ⟨0, h⟩) ((hcond0_0 ⟨0, h⟩).mpr rfl) (iblk m c 0 ⟨0, h⟩) (iblk m c 1 ⟨0, h⟩) y).trans ?_
    rw [tile_eq m c ⟨0, h⟩]
    rfl
  | n + 1, h, y => by
    by_cases h0 : (n + 1) % 4 = 0
    · refine (congrFun (outsAt0_A m c ⟨n + 1, h⟩ h0) y).trans ?_
      refine (out_A c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) ((hcond0_0 ⟨n + 1, h⟩).mpr h0) (iblk m c 0 ⟨n + 1, h⟩) (iblk m c 1 ⟨n + 1, h⟩) y).trans ?_
      rw [tile_eq m c ⟨n + 1, h⟩, SumBridge.acc_reset (prodTable m c) (n + 1) (lt8 h) h0]
    · refine (congrFun (outsAt0_B m c ⟨n + 1, h⟩ h0) y).trans ?_
      refine (out_B c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (fun hh => h0 ((hcond0_0 ⟨n + 1, h⟩).mp hh)) (iblk m c 0 ⟨n + 1, h⟩) (iblk m c 1 ⟨n + 1, h⟩)
        (outsAt0 m c n (Nat.lt_of_succ_lt h)) y).trans ?_
      rw [tile_eq m c ⟨n + 1, h⟩, SumBridge.acc_step (prodTable m c) (n + 1) (lt8 h) h0,
        outsAt_eq c n (Nat.lt_of_succ_lt h) (ix3 (0 : Fin 1) (0 : Fin 8) (0 : Fin 128)), outsAt_eq c n (Nat.lt_of_succ_lt h) y,
        if_pos (⟨rfl, rfl⟩ : ((ix3 (0 : Fin 1) (0 : Fin 8) (0 : Fin 128)) 1).val = 0 ∧ ((ix3 (0 : Fin 1) (0 : Fin 8) (0 : Fin 128)) 2).val = 0)]
      by_cases hy : (y 1).val = 0 ∧ (y 2).val = 0
      · rw [if_pos hy, if_pos hy]
        rfl
      · rw [if_neg hy, if_neg hy, if_neg hy]

end Cert.KernelIdeal.TileValue

end
-- ==== Proof.KernelFinal.lean ====
/-
  The kernel's result array after the run. The output window's block is [1, 8, 128]; its block index is the core number
  t / 4, and it is written back after the last point of each core (t = 3 and t = 7). So slab i of the [2, 8, 128] result
  holds what the block held after point 4 i + 3: the accumulator over tiles 4 i, …, 4 i + 3 at (i, 0, 0), zero elsewhere.
  The two written-back blocks cover the whole array.
-/
import proofs.«146345_j45019847197007_2_alg».proof.Proof.Gen.KernelIdeal.Frame
import proofs.«146345_j45019847197007_2_alg».proof.Proof.KernelAccum
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.TileValue

open Cert.KernelIdeal Cert.KernelIdeal.Gen

variable (m : (ℓ : Loc nD τ sig) → Buf (Elt Ideal) ℓ)

/-- The accumulator does not depend on how its point is written. -/
theorem acc_congr (f : (⟨2, ![4096, 4096]⟩ : Shape).Idx → EReal) {n n' : ℕ} (e : n = n') (h : n < 8) (h' : n' < 8) :
    SumBridge.acc f n h = SumBridge.acc f n' h' := by subst e; rfl

/-- The array the result ends holding: slab i has the accumulator after point 4 i + 3 at (i, 0, 0), zero elsewhere. -/
def outArr (c : Dev nD) : S2x8x128.Idx → EReal := fun j =>
  if (j 1).val = 0 ∧ (j 2).val = 0 then
    SumBridge.acc (prodTable m c) (4 * (j 0).val + 3) (by have h : (j 0).val < 2 := (j 0).isLt; omega)
  else 0

/-- The output window's block at point t is slab t / 4, from row 0 and lane 0. -/
theorem index2 : ∀ t : Fin cfg0.N, win0_2.index t 0 = t.val / 4 ∧ win0_2.index t 1 = 0 ∧ win0_2.index t 2 = 0 :=
  (by decide +kernel : ∀ t : Fin grid0.N, win0_2.index t 0 = t.val / 4 ∧ win0_2.index t 1 = 0 ∧ win0_2.index t 2 = 0)

/-- What a writing-back point t writes is block t of that array. -/
theorem flushed_eq (c : Dev nD) (t : Fin cfg0.N) (hf : (cfg0.win 2).flush t = true) :
    (dats m 0 c).flushed 2 t = ((cfg0.win 2).blk t).view.read (Elt Ideal) (outArr m c) := by
  show (cfg0.win 2).cut (grid0.coords t) ((dats m 0 c).after 2 t) = _
  rw [after0_2]
  have h3 : t.val % 4 = 3 := (flush0_2 t).mp hf
  have hN := lt8 t.isLt
  obtain ⟨e0, e1, e2⟩ := index2 t
  funext y
  show (outsAt0 m c t.val t.isLt : Vec Ideal S1x8x128 .f32) y = outArr m c (((cfg0.win 2).blk t).view.emb y)
  rw [outsAt_eq m c t.val t.isLt y]
  have hy0 : (y 0).val < 1 := (y 0).isLt
  have c0 : ((((cfg0.win 2).blk t).view.emb y) 0).val = t.val / 4 := by
    show win0_2.index t 0 * 1 + 1 * (y 0).val = _
    rw [e0]; omega
  have c1 : ((((cfg0.win 2).blk t).view.emb y) 1).val = (y 1).val := by
    show win0_2.index t 1 * 8 + 1 * (y 1).val = _
    rw [e1]; omega
  have c2 : ((((cfg0.win 2).blk t).view.emb y) 2).val = (y 2).val := by
    show win0_2.index t 2 * 128 + 1 * (y 2).val = _
    rw [e2]; omega
  unfold outArr
  exact if_congr (by rw [c1, c2]) (acc_congr _ (by rw [c0]; omega) _ _) rfl

/-- An index of the array is in point t's block iff each coordinate is in the block's range on its axis. -/
theorem mem_blk (t : Fin cfg0.N) (i : S2x8x128.Idx) :
    i ∈ ((cfg0.win 2).blk t).view.set ↔ ∀ a : Fin 3, win0_2.index t a * S1x8x128.size a ≤ (i a).val
      ∧ (i a).val < win0_2.index t a * S1x8x128.size a + S1x8x128.size a := by
  show i ∈ ((View.whole main_v87).slice (win0_2.rect t)).set ↔ _
  rw [View.set_slice_whole, Rect.mem_set_unit]
  exact Iff.rfl

/-- Every index of the array lies in the block written back after its slab's last point. -/
theorem covered (i : S2x8x128.Idx) :
    ∃ t : Fin cfg0.N, (cfg0.win 2).flush t = true ∧ i ∈ ((cfg0.win 2).blk t).view.set := by
  have hi0 : (i 0).val < 2 := (i 0).isLt
  have hi1 : (i 1).val < 8 := (i 1).isLt
  have hi2 : (i 2).val < 128 := (i 2).isLt
  have hlt : 4 * (i 0).val + 3 < cfg0.N := by rw [show cfg0.N = 8 from N_0]; omega
  obtain ⟨e0, e1, e2⟩ := index2 ⟨4 * (i 0).val + 3, hlt⟩
  have e0' : win0_2.index ⟨4 * (i 0).val + 3, hlt⟩ 0 = (4 * (i 0).val + 3) / 4 := e0
  refine ⟨⟨4 * (i 0).val + 3, hlt⟩, (flush0_2 _).mpr (by show (4 * (i 0).val + 3) % 4 = 3; omega), ?_⟩
  rw [mem_blk]
  intro a
  match a with
  | ⟨0, _⟩ =>
    show win0_2.index ⟨4 * (i 0).val + 3, hlt⟩ 0 * 1 ≤ (i 0).val ∧ (i 0).val < win0_2.index ⟨4 * (i 0).val + 3, hlt⟩ 0 * 1 + 1
    rw [e0']; omega
  | ⟨1, _⟩ =>
    show win0_2.index ⟨4 * (i 0).val + 3, hlt⟩ 1 * 8 ≤ (i 1).val ∧ (i 1).val < win0_2.index ⟨4 * (i 0).val + 3, hlt⟩ 1 * 8 + 8
    rw [e1]; omega
  | ⟨2, _⟩ =>
    show win0_2.index ⟨4 * (i 0).val + 3, hlt⟩ 2 * 128 ≤ (i 2).val ∧ (i 2).val < win0_2.index ⟨4 * (i 0).val + 3, hlt⟩ 2 * 128 + 128
    rw [e2]; omega

/-- The result array after the run. -/
theorem final_out (c : Dev nD) : (dats m 0 c).arrAt 2 cfg0.N = outArr m c :=
  (dats m 0 c).arrAt_eq_of_cover 2 (outArr m c) (fun t hf => flushed_eq m c t hf) (covered)

/-- Its sum is the sum of the whole table of products. -/
theorem sum_outArr (c : Dev nD) : ∑ j : S2x8x128.Idx, outArr m c j = ∑ j, prodTable m c j := by
  rw [← SumBridge.acc_total (prodTable m c)]
  exact SumBridge.sum_corner (fun i : Fin 2 => SumBridge.acc (prodTable m c) (4 * i.val + 3) (by have := i.isLt; omega))
    (outArr m c) (fun i p q => rfl)

end Cert.KernelIdeal.TileValue

end
-- ==== Proof.KernelHostTable.lean ====
/-
  The second array the kernel's region stages is computed by the host operations before the region: the histogram table
  scattered from the integer samples. The kernel's program and the reference's build it by the same operations, so it
  is the reference's table, as a function of the samples.
-/
import proofs.«146345_j45019847197007_2_alg».proof.Proof.Gen.KernelIdeal.Frame
import proofs.«146345_j45019847197007_2_alg».proof.Proof.Gen.ReferenceIdeal.Read
import Idealize.ShloMosaic.Lib.StableHlo.Run
import Idealize.ShloMosaic.Lib.Tactic

noncomputable section

open Idealize.ShloMosaic Idealize.ShloMosaic.TcCoe Idealize.SL.Sem

namespace Cert.KernelIdeal.HostValue

open Cert.KernelIdeal Cert.KernelIdeal.Gen

variable (m : (ℓ : Loc nD τ sig) → Buf (Elt Ideal) ℓ)

set_option maxRecDepth 8192 in
set_option maxHeartbeats 4000000 in
/-- The staged second array is the reference's histogram table of the samples. -/
theorem staged_table (c : Dev nD) : (V m c main_v86 : S4096x4096.Idx → EReal)
    = Cert.ReferenceIdeal.Read.val_main_v72 (F := Ideal) (m ((c.tc : Thread nD τ).loc main_arg3)) := by
  show StableHlo.after hostOps0 (fun b => m (c, b)) (Proc.devRef .tc main_v86) = _
  after_results_simp <;> rfl

end Cert.KernelIdeal.HostValue

end
-- ==== Proof.KernelHostVecs.lean ====
/-
  The two histogram vectors the host operations before the region scatter from the integer samples (the weights of the
  first and of the last word of a sample) are the reference's, built by the same operations.
-/
import proofs.«146345_j45019847197007_2_alg».proof.Proof.Gen.KernelIdeal.Frame
import proofs.«146345_j45019847197007_2_alg».proof.Proof.Gen.ReferenceIdeal.Read
import Idealize.ShloMosaic.Lib.StableHlo.Run
import Idealize.ShloMosaic.Lib.Tactic

noncomputable section

open Idealize.ShloMosaic Idealize.ShloMosaic.TcCoe Idealize.SL.Sem

namespace Cert.KernelIdeal.HostValue

open Cert.KernelIdeal Cert.KernelIdeal.Gen

variable (m : (ℓ : Loc nD τ sig) → Buf (Elt Ideal) ℓ)

set_option maxRecDepth 8192 in
set_option maxHeartbeats 4000000 in
/-- The first-word histogram is the reference's. -/
theorem first_hist (c : Dev nD) : (V m c main_v54 : S4096.Idx → EReal)
    = Cert.ReferenceIdeal.Read.val_main_v43 (F := Ideal) (m ((c.tc : Thread nD τ).loc main_arg3)) := by
  show StableHlo.after hostOps0 (fun b => m (c, b)) (Proc.devRef .tc main_v54) = _
  after_results_simp <;> rfl

set_option maxRecDepth 8192 in
set_option maxHeartbeats 4000000 in
/-- The last-word histogram is the reference's. -/
theorem last_hist (c : Dev nD) : (V m c main_v67 : S4096.Idx → EReal)
    = Cert.ReferenceIdeal.Read.val_main_v53 (F := Ideal) (m ((c.tc : Thread nD τ).loc main_arg3)) := by
  show StableHlo.after hostOps0 (fun b => m (c, b)) (Proc.devRef .tc main_v67) = _
  after_results_simp <;> rfl

end Cert.KernelIdeal.HostValue

end
-- ==== Proof.KernelHostGold.lean ====
/-
  The kernel's second result is computed entirely by the host operations before the region: the first entry of the
  second argument, plus the last entry of the third, plus the sum of a gather of the first argument at 4095 index pairs.
  The index pairs are built exactly as the reference builds the index pairs of its superdiagonal table.
-/
import proofs.«146345_j45019847197007_2_alg».proof.Proof.Gen.KernelIdeal.Frame
import proofs.«146345_j45019847197007_2_alg».proof.Proof.Gen.ReferenceIdeal.Read
import Idealize.ShloMosaic.Lib.StableHlo.Run
import Idealize.ShloMosaic.Lib.Tactic

noncomputable section

open Idealize.ShloMosaic Idealize.ShloMosaic.TcCoe Idealize.SL.Sem

namespace Cert.KernelIdeal.HostValue

open Cert.KernelIdeal Cert.KernelIdeal.Gen

variable (m : (ℓ : Loc nD τ sig) → Buf (Elt Ideal) ℓ)

/-- The second result as a term of the three float arguments. -/
def goldTerm (x0 : FVec Ideal S4096x4096 .f32) (x1 x2 : FVec Ideal S4096 .f32) : FVec Ideal S_ .f32 :=
  addf (F := Ideal)
    (addf (F := Ideal) (shapeCast S_ (extractStridedSlice S1 ![0] x1 slices_S4096_S1_0) shapeCasts_S1_S_)
      (shapeCast S_ (extractStridedSlice S1 ![4095] x2 slices_S4096_S1_4095) shapeCasts_S1_S_))
    (Host.reduceAdd (F := Ideal)
      (Host.gather gather_S4096x4096_S4095x2_S4095_n_01_n_n_01_1_11 x0 (Cert.ReferenceIdeal.Read.val_main_v22 (F := Ideal)))
      (constant (F := Ideal) S_ .f32 0x00000000#32) reducesTo_S4095_S_d0 h_S_)

set_option maxRecDepth 8192 in
set_option maxHeartbeats 4000000 in
/-- The second result's buffer, as the region finds it, holds that term of the arguments. -/
theorem second_result (c : Dev nD) : (V m c main_v41 : S_.Idx → EReal)
    = goldTerm (m ((c.tc : Thread nD τ).loc main_arg0)) (m ((c.tc : Thread nD τ).loc main_arg1)) (m ((c.tc : Thread nD τ).loc main_arg2)) := by
  show StableHlo.after hostOps0 (fun b => m (c, b)) (Proc.devRef .tc main_v41) = _
  after_results_simp <;> rfl

end Cert.KernelIdeal.HostValue

end
-- ==== Proof.LibScatterSet.lean ====
/-
  A host scatter read at an index of its result.

  The scatter is a left fold over the update indices in row-major order: each update is combined into the result at the
  operand index it lands at, and dropped when it lands outside the operand. Hence an operand index that no update lands
  at keeps the operand's value, whatever the combining function; and when the combining function returns the update
  (x.at[idx].set(v)), an operand index that exactly one update lands at holds that update's value.
  Generic in the shapes, the dimension numbers and the element type.
-/
import Idealize.ShloMosaic.PureOps.ShapeOps

namespace Cert.LibScatterSet

open Idealize.ShloMosaic

variable {s si u : Shape} {w : ℕ} {α : Type}

/-- One step of the fold: update number n combined into r where it lands. -/
def step (d : ScatterDims s si u) (f : α → α → α) (idx : IVec si w) (upd : u.Idx → α) (r : s.Idx → α)
    (n : Fin u.numel) : s.Idx → α :=
  match d.resultIdx? (u.rowMajor.symm n) idx with
  | some i => fun i' => if i' = i then f (r i) (upd (u.rowMajor.symm n)) else r i'
  | none => r

theorem scatter_eq_foldl (d : ScatterDims s si u) (f : α → α → α) (x : s.Idx → α) (idx : IVec si w) (upd : u.Idx → α) :
    Host.scatter d f x idx upd = (List.finRange u.numel).foldl (step d f idx upd) x := rfl

/-- A step whose update lands elsewhere (or nowhere) leaves the entry at i' as it was. -/
theorem step_of_ne (d : ScatterDims s si u) (f : α → α → α) (idx : IVec si w) (upd : u.Idx → α) (r : s.Idx → α)
    (n : Fin u.numel) (i' : s.Idx) (h : d.resultIdx? (u.rowMajor.symm n) idx ≠ some i') :
    step d f idx upd r n i' = r i' := by
  unfold step
  cases hres : d.resultIdx? (u.rowMajor.symm n) idx with
  | none => rfl
  | some i =>
    have hne : i' ≠ i := fun e => h (by rw [hres, e])
    exact if_neg hne

/-- A step whose update lands at i', the combining function returning the update, leaves the update's value there. -/
theorem step_of_eq (d : ScatterDims s si u) (idx : IVec si w) (upd : u.Idx → α) (r : s.Idx → α)
    (n : Fin u.numel) (i' : s.Idx) (h : d.resultIdx? (u.rowMajor.symm n) idx = some i') :
    step d (fun _ b => b) idx upd r n i' = upd (u.rowMajor.symm n) := by
  unfold step
  rw [h]
  exact if_pos rfl

theorem foldl_of_forall_ne (d : ScatterDims s si u) (f : α → α → α) (idx : IVec si w) (upd : u.Idx → α) (i' : s.Idx) :
    ∀ (L : List (Fin u.numel)) (r : s.Idx → α), (∀ n ∈ L, d.resultIdx? (u.rowMajor.symm n) idx ≠ some i') →
      L.foldl (step d f idx upd) r i' = r i'
  | [], _, _ => rfl
  | a :: L, r, h => by
    rw [List.foldl_cons, foldl_of_forall_ne d f idx upd i' L _ (fun n hn => h n (List.mem_cons_of_mem _ hn)),
      step_of_ne d f idx upd r a i' (h a (List.mem_cons_self ..))]

theorem foldl_of_unique (d : ScatterDims s si u) (idx : IVec si w) (upd : u.Idx → α) (i' : s.Idx) (n0 : Fin u.numel)
    (h0 : d.resultIdx? (u.rowMajor.symm n0) idx = some i') :
    ∀ (L : List (Fin u.numel)) (r : s.Idx → α), L.Nodup → n0 ∈ L →
      (∀ n ∈ L, d.resultIdx? (u.rowMajor.symm n) idx = some i' → n = n0) →
      L.foldl (step d (fun _ b => b) idx upd) r i' = upd (u.rowMajor.symm n0)
  | [], _, _, hn0, _ => absurd hn0 (List.not_mem_nil)
  | a :: L, r, hL, hn0, hu => by
    rw [List.foldl_cons]
    have hnd := List.nodup_cons.mp hL
    by_cases ha : a = n0
    · subst ha
      rw [foldl_of_forall_ne d _ idx upd i' L _ (fun n hn e =>
        hnd.1 ((hu n (List.mem_cons_of_mem _ hn) e) ▸ hn)), step_of_eq d idx upd r a i' h0]
    · have hmem : n0 ∈ L := (List.mem_cons.mp hn0).resolve_left (fun e => ha e.symm)
      exact foldl_of_unique d idx upd i' n0 h0 L _ hnd.2 hmem (fun n hn => hu n (List.mem_cons_of_mem _ hn))

/-- An operand index no update lands at keeps the operand's value. -/
theorem scatter_of_forall_ne (d : ScatterDims s si u) (f : α → α → α) (x : s.Idx → α) (idx : IVec si w) (upd : u.Idx → α)
    (i' : s.Idx) (h : ∀ j : u.Idx, d.resultIdx? j idx ≠ some i') : Host.scatter d f x idx upd i' = x i' :=
  foldl_of_forall_ne d f idx upd i' _ x (fun n _ => h _)

/-- With the combining function returning the update, an operand index exactly one update lands at holds that update's
    value. -/
theorem scatter_set_of_unique (d : ScatterDims s si u) (x : s.Idx → α) (idx : IVec si w) (upd : u.Idx → α) (i' : s.Idx)
    (j0 : u.Idx) (h0 : d.resultIdx? j0 idx = some i') (hu : ∀ j : u.Idx, d.resultIdx? j idx = some i' → j = j0) :
    Host.scatter d (fun _ b => b) x idx upd i' = upd j0 := by
  have h := foldl_of_unique d idx upd i' (u.rowMajor j0) (by rw [Equiv.symm_apply_apply]; exact h0)
    (List.finRange u.numel) x (List.nodup_finRange _) (List.mem_finRange _)
    (fun n _ e => by rw [← hu _ e, Equiv.apply_symm_apply])
  rw [Equiv.symm_apply_apply] at h
  exact h

end Cert.LibScatterSet
-- ==== Proof.LibPointIndex.lean ====
/-
  Scatters and gathers whose every update, or result element, is ONE array entry named by an index vector, read through
  their dimension numbers (generic in the extents; the element type is arbitrary).

  * pointScatter: n index pairs (r, q) into an [A, B] array (no window axes, both operand axes inserted, the index
    vector along axis 1 of the [n, 2] index array). Update k lands at (idx (k, 0), idx (k, 1)), read signed.
  * oneScatter: a single scalar update into an [A] array at the index idx (0).
  * pointGather: n index pairs into an [A, B] array, one entry each. Result element k reads the operand at
    (idx (k, 0), idx (k, 1)), read signed and clamped.
-/
import Idealize.ShloMosaic.PureOps.ShapeOps
import Idealize.ShloMosaic.Lib.ValueIdx

namespace Cert.LibPointIndex

open Idealize.ShloMosaic Idealize.ShloMosaic.ValueIdx

variable {A B n w : ℕ}

theorem mem01 : ∀ a : Fin 2, a ∈ ([0, 1] : List (Fin 2)) := by decide
theorem mem01' : ∀ a : Fin 2, a ∈ ([0, 1] ++ [] : List (Fin 2)) := by decide
theorem mem0 : ∀ a : Fin 1, a ∈ ([0] : List (Fin 1)) := by decide

/-! ## n index pairs scattered into [A, B] -/

/-- The dimension numbers of a scatter of n index pairs into [A, B]. -/
abbrev pointScatter (wf : ScatterDims.WF ⟨2, ![A, B]⟩ ⟨2, ![n, 2]⟩ ⟨1, ![n]⟩ [] [0, 1] [0, 1] 1) :
    ScatterDims ⟨2, ![A, B]⟩ ⟨2, ![n, 2]⟩ ⟨1, ![n]⟩ :=
  { updateWindowDims := [], insertedWindowDims := [0, 1], scatterDimsToOperandDims := [0, 1], indexVectorDim := 1, wf := wf }

theorem pointScatter_start0 (wf : ScatterDims.WF ⟨2, ![A, B]⟩ ⟨2, ![n, 2]⟩ ⟨1, ![n]⟩ [] [0, 1] [0, 1] 1)
    (idx : IVec ⟨2, ![n, 2]⟩ w) (k : Fin n) :
    (pointScatter wf).start (ix1 k) idx 0 = (idx (ix2 k (0 : Fin 2))).toInt := by
  unfold ScatterDims.start
  rw [dif_pos (mem01 _)]
  refine congrArg (fun i => (idx i).toInt) (funext fun b => Fin.ext ?_)
  match b with
  | ⟨0, _⟩ => rfl
  | ⟨1, _⟩ => rfl

theorem pointScatter_start1 (wf : ScatterDims.WF ⟨2, ![A, B]⟩ ⟨2, ![n, 2]⟩ ⟨1, ![n]⟩ [] [0, 1] [0, 1] 1)
    (idx : IVec ⟨2, ![n, 2]⟩ w) (k : Fin n) :
    (pointScatter wf).start (ix1 k) idx 1 = (idx (ix2 k (1 : Fin 2))).toInt := by
  unfold ScatterDims.start
  rw [dif_pos (mem01 _)]
  refine congrArg (fun i => (idx i).toInt) (funext fun b => Fin.ext ?_)
  match b with
  | ⟨0, _⟩ => rfl
  | ⟨1, _⟩ => rfl

theorem pointScatter_window (wf : ScatterDims.WF ⟨2, ![A, B]⟩ ⟨2, ![n, 2]⟩ ⟨1, ![n]⟩ [] [0, 1] [0, 1] 1)
    (j : (⟨1, ![n]⟩ : Shape).Idx) (a : Fin 2) : (pointScatter wf).window j a = 0 := by
  unfold ScatterDims.window
  rw [dif_neg]
  intro h
  exact (of_decide_eq_true (List.mem_filter.mp h).2) (mem01 a)

/-- Update k lands at (r, q) when the index array holds r and q, in range, in row k. -/
theorem pointScatter_resultIdx (wf : ScatterDims.WF ⟨2, ![A, B]⟩ ⟨2, ![n, 2]⟩ ⟨1, ![n]⟩ [] [0, 1] [0, 1] 1)
    (idx : IVec ⟨2, ![n, 2]⟩ w) (k : Fin n) (r : Fin A) (q : Fin B)
    (hr : (idx (ix2 k (0 : Fin 2))).toInt = r.val) (hq : (idx (ix2 k (1 : Fin 2))).toInt = q.val) :
    (pointScatter wf).resultIdx? (ix1 k) idx = some (ix2 r q) := by
  have s0 := pointScatter_start0 wf idx k
  have s1 := pointScatter_start1 wf idx k
  have w0 := pointScatter_window wf (ix1 k) 0
  have w1 := pointScatter_window wf (ix1 k) 1
  have hrA := r.isLt
  have hqB := q.isLt
  unfold ScatterDims.resultIdx?
  have h : ∀ a : Fin 2, 0 ≤ (pointScatter wf).start (ix1 k) idx a + ((pointScatter wf).window (ix1 k) a : ℤ)
      ∧ (pointScatter wf).start (ix1 k) idx a + ((pointScatter wf).window (ix1 k) a : ℤ) < ((⟨2, ![A, B]⟩ : Shape).size a : ℤ) := by
    have e0 : ((⟨2, ![A, B]⟩ : Shape).size (0 : Fin 2)) = A := rfl
    have e1 : ((⟨2, ![A, B]⟩ : Shape).size (1 : Fin 2)) = B := rfl
    refine Fin.forall_fin_two.mpr ⟨?_, ?_⟩
    · rw [s0, w0, hr, e0]; omega
    · rw [s1, w1, hq, e1]; omega
  rw [dif_pos h]
  refine congrArg some (funext fun a => Fin.ext ?_)
  match a with
  | ⟨0, _⟩ =>
    show ((pointScatter wf).start (ix1 k) idx 0 + (((pointScatter wf).window (ix1 k) 0 : ℕ) : ℤ)).toNat = r.val
    rw [s0, w0, hr]; omega
  | ⟨1, _⟩ =>
    show ((pointScatter wf).start (ix1 k) idx 1 + (((pointScatter wf).window (ix1 k) 1 : ℕ) : ℤ)).toNat = q.val
    rw [s1, w1, hq]; omega

/-! ## One scalar scattered into [A] -/

/-- The dimension numbers of a scatter of one scalar into [A] at one index. -/
abbrev oneScatter (wf : ScatterDims.WF ⟨1, ![A]⟩ ⟨1, ![1]⟩ ⟨0, ![]⟩ [] [0] [0] 0) :
    ScatterDims ⟨1, ![A]⟩ ⟨1, ![1]⟩ ⟨0, ![]⟩ :=
  { updateWindowDims := [], insertedWindowDims := [0], scatterDimsToOperandDims := [0], indexVectorDim := 0, wf := wf }

theorem oneScatter_start (wf : ScatterDims.WF ⟨1, ![A]⟩ ⟨1, ![1]⟩ ⟨0, ![]⟩ [] [0] [0] 0) (idx : IVec ⟨1, ![1]⟩ w)
    (j : (⟨0, ![]⟩ : Shape).Idx) : (oneScatter wf).start j idx 0 = (idx (ix1 (0 : Fin 1))).toInt := by
  unfold ScatterDims.start
  rw [dif_pos (mem0 _)]
  refine congrArg (fun i => (idx i).toInt) (funext fun b => Fin.ext ?_)
  match b with
  | ⟨0, _⟩ => rfl

theorem oneScatter_window (wf : ScatterDims.WF ⟨1, ![A]⟩ ⟨1, ![1]⟩ ⟨0, ![]⟩ [] [0] [0] 0)
    (j : (⟨0, ![]⟩ : Shape).Idx) (a : Fin 1) : (oneScatter wf).window j a = 0 := by
  unfold ScatterDims.window
  rw [dif_neg]
  intro h
  exact (of_decide_eq_true (List.mem_filter.mp h).2) (mem0 a)

/-- The update lands at r when the index array holds r, in range. -/
theorem oneScatter_resultIdx (wf : ScatterDims.WF ⟨1, ![A]⟩ ⟨1, ![1]⟩ ⟨0, ![]⟩ [] [0] [0] 0) (idx : IVec ⟨1, ![1]⟩ w)
    (j : (⟨0, ![]⟩ : Shape).Idx) (r : Fin A) (hr : (idx (ix1 (0 : Fin 1))).toInt = r.val) :
    (oneScatter wf).resultIdx? j idx = some (ix1 r) := by
  have s0 := oneScatter_start wf idx j
  have w0 := oneScatter_window wf j 0
  have hrA := r.isLt
  unfold ScatterDims.resultIdx?
  have h : ∀ a : Fin 1, 0 ≤ (oneScatter wf).start j idx a + ((oneScatter wf).window j a : ℤ)
      ∧ (oneScatter wf).start j idx a + ((oneScatter wf).window j a : ℤ) < ((⟨1, ![A]⟩ : Shape).size a : ℤ) := by
    have e0 : ((⟨1, ![A]⟩ : Shape).size (0 : Fin 1)) = A := rfl
    refine Fin.forall_fin_one.mpr ?_
    rw [s0, w0, hr, e0]; omega
  rw [dif_pos h]
  refine congrArg some (funext fun a => Fin.ext ?_)
  match a with
  | ⟨0, _⟩ =>
    show ((oneScatter wf).start j idx 0 + (((oneScatter wf).window j 0 : ℕ) : ℤ)).toNat = r.val
    rw [s0, w0, hr]; omega

/-! ## n index pairs gathered from [A, B] -/

/-- The dimension numbers of a gather of n single entries of an [A, B] array, one index pair each. -/
abbrev pointGather (wf : GatherDims.WF ⟨2, ![A, B]⟩ ⟨2, ![n, 2]⟩ ⟨1, ![n]⟩ [] [0, 1] [] [0, 1] [] 1 ![1, 1]) :
    GatherDims ⟨2, ![A, B]⟩ ⟨2, ![n, 2]⟩ ⟨1, ![n]⟩ :=
  { offsetDims := [], collapsedSliceDims := [0, 1], operandBatchingDims := [], startIndicesBatchingDims := [],
    startIndexMap := [0, 1], indexVectorDim := 1, sliceSizes := ![1, 1], wf := wf }

theorem pointGather_start0 (wf : GatherDims.WF ⟨2, ![A, B]⟩ ⟨2, ![n, 2]⟩ ⟨1, ![n]⟩ [] [0, 1] [] [0, 1] [] 1 ![1, 1])
    (idx : IVec ⟨2, ![n, 2]⟩ w) (k : Fin n) :
    (pointGather wf).start (ix1 k) idx 0 = min (idx (ix2 k (0 : Fin 2))).toInt.toNat (A - 1) := by
  unfold GatherDims.start
  rw [dif_pos (mem01 _)]
  refine congrArg (fun i => min (idx i).toInt.toNat (A - 1)) (funext fun b => Fin.ext ?_)
  match b with
  | ⟨0, _⟩ => rfl
  | ⟨1, _⟩ => rfl

theorem pointGather_start1 (wf : GatherDims.WF ⟨2, ![A, B]⟩ ⟨2, ![n, 2]⟩ ⟨1, ![n]⟩ [] [0, 1] [] [0, 1] [] 1 ![1, 1])
    (idx : IVec ⟨2, ![n, 2]⟩ w) (k : Fin n) :
    (pointGather wf).start (ix1 k) idx 1 = min (idx (ix2 k (1 : Fin 2))).toInt.toNat (B - 1) := by
  unfold GatherDims.start
  rw [dif_pos (mem01 _)]
  refine congrArg (fun i => min (idx i).toInt.toNat (B - 1)) (funext fun b => Fin.ext ?_)
  match b with
  | ⟨0, _⟩ => rfl
  | ⟨1, _⟩ => rfl

/-- Result element k reads the operand at (r, q) when the index array holds r and q, in range, in row k. -/
theorem pointGather_apply {α : Type} (wf : GatherDims.WF ⟨2, ![A, B]⟩ ⟨2, ![n, 2]⟩ ⟨1, ![n]⟩ [] [0, 1] [] [0, 1] [] 1 ![1, 1])
    (x : (⟨2, ![A, B]⟩ : Shape).Idx → α) (idx : IVec ⟨2, ![n, 2]⟩ w) (k : Fin n) (r : Fin A) (q : Fin B)
    (hr : (idx (ix2 k (0 : Fin 2))).toInt = r.val) (hq : (idx (ix2 k (1 : Fin 2))).toInt = q.val) :
    Host.gather (pointGather wf) x idx (ix1 k) = x (ix2 r q) := by
  have s0 := pointGather_start0 wf idx k
  have s1 := pointGather_start1 wf idx k
  have hrA := r.isLt
  have hqB := q.isLt
  unfold Host.gather
  refine congrArg x (funext fun a => Fin.ext ?_)
  match a with
  | ⟨0, _⟩ =>
    show (pointGather wf).start (ix1 k) idx 0 + (pointGather wf).batchCoord (ix1 k) 0 + (pointGather wf).offCoord (ix1 k) 0 = r.val
    rw [s0, (pointGather wf).batchCoord_eq_zero (ix1 k) 0 List.not_mem_nil,
      (pointGather wf).offCoord_eq_zero (ix1 k) 0 (fun h => (of_decide_eq_true (List.mem_filter.mp h).2) (mem01' 0)), hr]
    omega
  | ⟨1, _⟩ =>
    show (pointGather wf).start (ix1 k) idx 1 + (pointGather wf).batchCoord (ix1 k) 1 + (pointGather wf).offCoord (ix1 k) 1 = q.val
    rw [s1, (pointGather wf).batchCoord_eq_zero (ix1 k) 1 List.not_mem_nil,
      (pointGather wf).offCoord_eq_zero (ix1 k) 1 (fun h => (of_decide_eq_true (List.mem_filter.mp h).2) (mem01' 1)), hq]
    omega

end Cert.LibPointIndex
-- ==== Proof.RefGold.lean ====
/-
  The reference's second result, read at the ideal instance. The reference builds three indicator tables by scattering
  the value -1 into zeros: one entry at index 0 of a vector, one at index 4095 of a vector, and the 4095 entries (k, k + 1)
  of a 4096 × 4096 table (the index pairs come from an iota, sliced twice, each slice wrapped by "add 4096 if negative",
  which changes nothing for these nonnegative indices). Each table therefore holds -1 exactly where stated and 0
  elsewhere; the result is minus the total of the three arguments' sums weighted by them.
-/
import proofs.«146345_j45019847197007_2_alg».proof.Proof.Gen.ReferenceIdeal.Read
import proofs.«146345_j45019847197007_2_alg».proof.Proof.LibScatterSet
import proofs.«146345_j45019847197007_2_alg».proof.Proof.LibPointIndex
import Idealize.ShloMosaic.Lib.Pipeline.Value
import Idealize.ShloMosaic.Lib.ValueIdx
import Idealize.ShloMosaic.Lib.Affine
import Idealize.ShloMosaic.PureOps.Ideal.Laws

noncomputable section

open Idealize.ShloMosaic Idealize.ShloMosaic.ValueIdx

namespace Cert.ReferenceIdeal.GoldValue

open Cert.ReferenceIdeal Cert.ReferenceIdeal.Gen Cert.ReferenceIdeal.Read

/-- The f32 pattern of -1.0 is the extended real -1. -/
theorem ofBits_neg_one_f32 : Ideal.ofBits .f32 0xBF800000#32 = -1 := by
  rw [show (-1 : EReal) = ((-(1 : ℝ) : ℝ) : EReal) by simp]
  simp [Ideal.ofBits, Ideal.ieee, -EReal.coe_mul, -EReal.coe_neg]; norm_num

/-- A small natural number as a 32-bit word, read signed, is itself. -/
theorem toInt_ofNat_small (k : ℕ) (h : k < 2 ^ 31) : (BitVec.ofNat 32 k).toInt = k := by
  rw [BitVec.toInt_ofNat']
  exact Int.bmod_eq_of_le (by omega) (by omega)

/-- Wrapping a nonnegative index ("add 4096 if negative") leaves it as it is. -/
theorem wrap_small (k : ℕ) (hk : k < 4097) :
    Scalar.select (IntOp.cmpi .slt (BitVec.ofNat 32 k) 0#32) (IntOp.addi (BitVec.ofNat 32 k) 4096#32) (BitVec.ofNat 32 k)
      = BitVec.ofNat 32 k := by
  have z : (0#32 : BitVec 32).toInt = 0 := by decide
  have h : IntOp.cmpi .slt (BitVec.ofNat 32 k) 0#32 = 0#1 := eq_zero_of_ne_one (fun e => by
    have := IntOp.cmpi_slt.mp e
    rw [toInt_ofNat_small k (by omega), z] at this
    omega)
  rw [h, select_zero]

/-- The wrapped first slice of the iota holds k at k. -/
theorem rows_apply (k : Fin 4095) : val_main_v14 (F := Ideal) (ix1 k) = BitVec.ofNat 32 k.val := by
  rw [val_main_v14_apply, val_main_v11_apply, val_main_v13_apply, val_main_v8_apply, val_main_v10_apply, val_main_v12_apply,
    val_main_v0_apply, val_main_c_5_apply, val_main_c_6_apply]
  exact wrap_small k.val (by have := k.isLt; omega)

/-- The wrapped second slice of the iota holds k + 1 at k. -/
theorem cols_apply (k : Fin 4095) : val_main_v19 (F := Ideal) (ix1 k) = BitVec.ofNat 32 (1 + k.val) := by
  rw [val_main_v19_apply, val_main_v16_apply, val_main_v18_apply, val_main_v9_apply, val_main_v15_apply, val_main_v17_apply,
    val_main_v0_apply, val_main_c_7_apply, val_main_c_8_apply]
  exact wrap_small (1 + k.val) (by have := k.isLt; omega)

/-- Row k of the index-pair table holds k, -/
theorem pairs_left (k : Fin 4095) : val_main_v22 (F := Ideal) (ix2 k (0 : Fin 2)) = BitVec.ofNat 32 k.val := by
  unfold val_main_v22
  refine (concatenate_pair_apply_left (t := S4095x2) (s₁ := S4095x1) (s₂ := S4095x1) (1 : Fin 2) (val_main_v20 (F := Ideal))
    (val_main_v21 (F := Ideal)) concatenates_S4095x1_S4095x1_S4095x2_d1 (ix2 k (0 : Fin 2)) (rfl : S4095x1.rank = S4095x2.rank)
    (ix2 k (0 : Fin 1)) (fun b => by match b with | ⟨0, _⟩ => rfl | ⟨1, _⟩ => rfl)).trans ?_
  refine (val_main_v20_apply _).trans ?_
  exact (congrArg (val_main_v14 (F := Ideal)) (funext fun a => by match a with | ⟨0, _⟩ => rfl)).trans (rows_apply k)

/-- and k + 1. -/
theorem pairs_right (k : Fin 4095) : val_main_v22 (F := Ideal) (ix2 k (1 : Fin 2)) = BitVec.ofNat 32 (1 + k.val) := by
  unfold val_main_v22
  refine (concatenate_pair_apply_right (t := S4095x2) (s₁ := S4095x1) (s₂ := S4095x1) (1 : Fin 2) (val_main_v20 (F := Ideal))
    (val_main_v21 (F := Ideal)) concatenates_S4095x1_S4095x1_S4095x2_d1 (ix2 k (1 : Fin 2)) (rfl : S4095x1.rank = S4095x2.rank)
    (rfl : S4095x1.rank = S4095x2.rank) (ix2 k (0 : Fin 1)) (fun b hb => by
      match b with
      | ⟨0, _⟩ => rfl
      | ⟨1, _⟩ => exact absurd rfl hb) rfl).trans ?_
  refine (val_main_v21_apply _).trans ?_
  exact (congrArg (val_main_v19 (F := Ideal)) (funext fun a => by match a with | ⟨0, _⟩ => rfl)).trans (cols_apply k)

/-- The first vector table: -1 at index 0, zero elsewhere. -/
theorem first_apply (j : S4096.Idx) : val_main_v3 (F := Ideal) j = if (j 0).val = 0 then -1 else 0 := by
  have hidx : ((val_main_v2 (F := Ideal)) (ix1 (0 : Fin 1))).toInt = ((0 : Fin 4096).val : ℤ) := by
    show (0#32 : BitVec 32).toInt = 0
    decide
  have hres : ∀ j' : S_.Idx, (LibPointIndex.oneScatter scatter_S4096_S1_S__n_0_0_0_wf).resultIdx? j' (val_main_v2 (F := Ideal))
      = some (ix1 (0 : Fin 4096)) := fun j' => LibPointIndex.oneScatter_resultIdx _ _ j' (0 : Fin 4096) hidx
  show Host.scatter (LibPointIndex.oneScatter scatter_S4096_S1_S__n_0_0_0_wf) (fun _ b => b) (val_main_v1 (F := Ideal))
    (val_main_v2 (F := Ideal)) (val_main_cst_0 (F := Ideal)) j = _
  by_cases hj : (j 0).val = 0
  · have ej : j = ix1 (0 : Fin 4096) := (eq_ix1 j).trans (congrArg ix1 (Fin.ext hj))
    rw [if_pos hj, ej, LibScatterSet.scatter_set_of_unique _ _ _ _ _ ix0 (hres ix0) (fun j' _ => eq_ix0 j')]
    exact ofBits_neg_one_f32
  · rw [if_neg hj, LibScatterSet.scatter_of_forall_ne _ _ _ _ _ j (fun j' e => hj (by
      have h := Option.some.inj ((hres j').symm.trans e)
      rw [← h]; try rfl))]
    exact Ideal.ofBits_zero_f32

/-- The second vector table: -1 at index 4095, zero elsewhere. -/
theorem last_apply (j : S4096.Idx) : val_main_v6 (F := Ideal) j = if (j 0).val = 4095 then -1 else 0 := by
  have hidx : ((val_main_v5 (F := Ideal)) (ix1 (0 : Fin 1))).toInt = ((⟨4095, by norm_num⟩ : Fin 4096).val : ℤ) := by
    show (4095#32 : BitVec 32).toInt = 4095
    decide
  have hres : ∀ j' : S_.Idx, (LibPointIndex.oneScatter scatter_S4096_S1_S__n_0_0_0_wf).resultIdx? j' (val_main_v5 (F := Ideal))
      = some (ix1 (⟨4095, by norm_num⟩ : Fin 4096)) := fun j' => LibPointIndex.oneScatter_resultIdx _ _ j' (⟨4095, by norm_num⟩ : Fin 4096) hidx
  show Host.scatter (LibPointIndex.oneScatter scatter_S4096_S1_S__n_0_0_0_wf) (fun _ b => b) (val_main_v4 (F := Ideal))
    (val_main_v5 (F := Ideal)) (val_main_cst_3 (F := Ideal)) j = _
  by_cases hj : (j 0).val = 4095
  · have ej : j = ix1 (⟨4095, by norm_num⟩ : Fin 4096) := (eq_ix1 j).trans (congrArg ix1 (Fin.ext hj))
    rw [if_pos hj, ej, LibScatterSet.scatter_set_of_unique _ _ _ _ _ ix0 (hres ix0) (fun j' _ => eq_ix0 j')]
    exact ofBits_neg_one_f32
  · rw [if_neg hj, LibScatterSet.scatter_of_forall_ne _ _ _ _ _ j (fun j' e => hj (by
      have h := Option.some.inj ((hres j').symm.trans e)
      rw [← h]; try rfl))]
    exact Ideal.ofBits_zero_f32

/-- Update k of the table scatter lands at (k, k + 1). -/
theorem lands (k : Fin 4095) :
    (LibPointIndex.pointScatter scatter_S4096x4096_S4095x2_S4095_n_01_01_1_wf).resultIdx? (ix1 k) (val_main_v22 (F := Ideal))
      = some (ix2 (⟨k.val, by have := k.isLt; omega⟩ : Fin 4096) (⟨1 + k.val, by have := k.isLt; omega⟩ : Fin 4096)) := by
  have hk := k.isLt
  refine LibPointIndex.pointScatter_resultIdx _ _ k _ _ ?_ ?_
  · rw [pairs_left k, toInt_ofNat_small _ (by omega)]
  · rw [pairs_right k, toInt_ofNat_small _ (by omega)]

/-- The table: -1 on the superdiagonal, zero elsewhere. -/
theorem table_apply (j : S4096x4096.Idx) : val_main_v24 (F := Ideal) j = if (j 1).val = (j 0).val + 1 then -1 else 0 := by
  show Host.scatter (LibPointIndex.pointScatter scatter_S4096x4096_S4095x2_S4095_n_01_01_1_wf) (fun _ b => b) (val_main_v7 (F := Ideal))
    (val_main_v22 (F := Ideal)) (val_main_v23 (F := Ideal)) j = _
  have hj0 : (j 0).val < 4096 := (j 0).isLt
  have hj1 : (j 1).val < 4096 := (j 1).isLt
  by_cases hj : (j 1).val = (j 0).val + 1
  · have hk : (j 0).val < 4095 := by omega
    have ej : j = ix2 (⟨(j 0).val, by omega⟩ : Fin 4096) (⟨1 + (j 0).val, by omega⟩ : Fin 4096) :=
      (eq_ix2 j).trans (congrArg₂ ix2 (Fin.ext rfl) (Fin.ext (by show (j 1).val = 1 + (j 0).val; omega)))
    have hl := lands ⟨(j 0).val, hk⟩
    rw [if_pos hj, LibScatterSet.scatter_set_of_unique _ _ _ _ j (ix1 (⟨(j 0).val, hk⟩ : Fin 4095))
      (hl.trans (congrArg some ej.symm)) (fun j' e => by
        obtain ⟨k, rfl⟩ : ∃ k : Fin 4095, j' = ix1 k :=
          ⟨⟨(j' 0).val, (j' 0).isLt⟩, funext fun d => by match d with | ⟨0, _⟩ => rfl⟩
        have h := Option.some.inj ((lands k).symm.trans e)
        exact congrArg ix1 (Fin.ext (show k.val = (j 0).val from congrArg Fin.val (congrFun h 0))))]
    exact ofBits_neg_one_f32
  · rw [if_neg hj, LibScatterSet.scatter_of_forall_ne _ _ _ _ _ j (fun j' e => hj (by
      obtain ⟨k, rfl⟩ : ∃ k : Fin 4095, j' = ix1 k :=
        ⟨⟨(j' 0).val, (j' 0).isLt⟩, funext fun d => by match d with | ⟨0, _⟩ => rfl⟩
      have h := Option.some.inj ((lands k).symm.trans e)
      have a0 : k.val = (j 0).val := congrArg Fin.val (congrFun h 0)
      have a1 : 1 + k.val = (j 1).val := congrArg Fin.val (congrFun h 1)
      omega))]
    exact Ideal.ofBits_zero_f32

/-- The second result: minus the total of the three weighted sums. -/
theorem second_apply (x0 : (⟨S4096x4096, .f32⟩ : BufTy).Contents (Elt Ideal)) (x1 x2 : (⟨S4096, .f32⟩ : BufTy).Contents (Elt Ideal))
    (i : S_.Idx) :
    val_main_v33 (F := Ideal) x0 x1 x2 i
      = -(((0 + ∑ j : S4096.Idx, x1 j * val_main_v3 (F := Ideal) j) + (0 + ∑ j : S4096.Idx, x2 j * val_main_v6 (F := Ideal) j))
          + (0 + ∑ j : S4096x4096.Idx, x0 j * val_main_v24 (F := Ideal) j)) := by
  rw [val_main_v33_apply, val_main_v32_apply, val_main_v29_apply, val_main_v26_apply, val_main_v28_apply, val_main_v31_apply,
    val_main_cst_10_apply, val_main_cst_11_apply, val_main_cst_12_apply]
  simp only [Ideal.ofBits_def, Ideal.ofBits_zero_f32, Ideal.hostNegf_def, Ideal.negf_def, Ideal.addf_def, val_main_v25_apply,
    val_main_v27_apply, val_main_v30_apply, Ideal.mulf_def]

end Cert.ReferenceIdeal.GoldValue

end
-- ==== Proof.GoldLaw.lean ====
/-
  The identity behind the second result. Let a1, a2 be real vectors of length 4096 and a0 a real 4096 × 4096 table. Weight
  a1 by the table that is -1 at index 0 and 0 elsewhere, a2 by the table that is -1 at index 4095 and 0 elsewhere, and a0
  by the table that is -1 on the superdiagonal (q = p + 1) and 0 elsewhere. The three weighted sums are -a1 0, -a2 4095
  and -(∑ k < 4095, a0 (k, k + 1)); so minus their total is a1 0 + a2 4095 + ∑ k, a0 (k, k + 1). The entries being real,
  the identity holds on the extended reals as well (there negation does not distribute over a sum of opposite infinities,
  which is why the entries' finiteness is used).
-/
import Idealize.ShloMosaic.PureOps.Ideal
import Idealize.ShloMosaic.Lib.ValueIdx

namespace Cert.GoldLaw

open Idealize.ShloMosaic Idealize.ShloMosaic.ValueIdx
open scoped BigOperators

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the indices of a one-axis shape is the sum over the axis's coordinates. -/
theorem sum_idx1 {M : Type*} [AddCommMonoid M] {n : ℕ} (f : (⟨1, ![n]⟩ : Shape).Idx → M) :
    ∑ j : (⟨1, ![n]⟩ : Shape).Idx, f j = ∑ b : Fin n, f (ix1 b) := by
  let e : Fin n ≃ (⟨1, ![n]⟩ : Shape).Idx :=
    { toFun := ix1, invFun := fun j => j 0, left_inv := fun _ => rfl, right_inv := fun j => (eq_ix1 j).symm }
  exact (e.sum_comp f).symm

/-- A vector weighted by the table that is -1 at coordinate c and 0 elsewhere sums to minus its entry at c. -/
theorem sum_pick (a : (⟨1, ![4096]⟩ : Shape).Idx → ℝ) (c : Fin 4096) :
    ∑ j : (⟨1, ![4096]⟩ : Shape).Idx, a j * (if (j 0).val = c.val then (-1 : ℝ) else 0) = -(a (ix1 c)) := by
  rw [sum_idx1, Finset.sum_eq_single c]
  · rw [if_pos rfl]; ring
  · intro b _ hb
    rw [if_neg (fun h => hb (Fin.ext h))]; ring
  · intro h; exact absurd (Finset.mem_univ _) h

/-- A table weighted by the table that is -1 on the superdiagonal and 0 elsewhere sums to minus the sum of its
    superdiagonal. -/
theorem sum_superdiag (a : (⟨2, ![4096, 4096]⟩ : Shape).Idx → ℝ) :
    ∑ j : (⟨2, ![4096, 4096]⟩ : Shape).Idx, a j * (if (j 1).val = (j 0).val + 1 then (-1 : ℝ) else 0)
      = -(∑ k : Fin 4095, a (ix2 (⟨k.val, by have := k.isLt; omega⟩ : Fin 4096) (⟨k.val + 1, by have := k.isLt; omega⟩ : Fin 4096))) := by
  rw [sum_idx2]
  have inner : ∀ p : Fin 4096, ∑ q : Fin 4096, a (ix2 p q) * (if ((ix2 p q : (⟨2, ![4096, 4096]⟩ : Shape).Idx) 1).val = ((ix2 p q : (⟨2, ![4096, 4096]⟩ : Shape).Idx) 0).val + 1 then (-1 : ℝ) else 0)
      = if h : p.val + 1 < 4096 then -(a (ix2 p ⟨p.val + 1, h⟩)) else 0 := by
    intro p
    by_cases h : p.val + 1 < 4096
    · rw [dif_pos h, Finset.sum_eq_single (⟨p.val + 1, h⟩ : Fin 4096)]
      · rw [if_pos rfl]; ring
      · intro q _ hq
        rw [if_neg (fun hh => hq (Fin.ext hh))]; ring
      · intro hh; exact absurd (Finset.mem_univ _) hh
    · rw [dif_neg h]
      refine Finset.sum_eq_zero fun q _ => ?_
      have hq := q.isLt
      rw [if_neg (fun hh => h (by show p.val + 1 < 4096; have e : q.val = p.val + 1 := hh; omega))]; ring
  rw [Finset.sum_congr rfl fun p _ => inner p, Fin.sum_univ_castSucc, ← Finset.sum_neg_distrib]
  rw [dif_neg (by show ¬ (Fin.last 4095).val + 1 < 4096; simp), add_zero]
  refine Finset.sum_congr rfl fun k _ => ?_
  have hk := k.isLt
  rw [dif_pos (by show (Fin.castSucc k).val + 1 < 4096; simp; omega)]
  rfl

/-- The identity on the extended reals, for real entries: the weights given as any tables that take the stated values,
    the superdiagonal given as any family g that takes the superdiagonal entries. -/
theorem gold (a0 : (⟨2, ![4096, 4096]⟩ : Shape).Idx → ℝ) (a1 a2 : (⟨1, ![4096]⟩ : Shape).Idx → ℝ)
    (t0 : (⟨2, ![4096, 4096]⟩ : Shape).Idx → EReal) (t1 t2 : (⟨1, ![4096]⟩ : Shape).Idx → EReal)
    (ht1 : ∀ j, t1 j = if (j 0).val = 0 then -1 else 0)
    (ht2 : ∀ j, t2 j = if (j 0).val = 4095 then -1 else 0)
    (ht0 : ∀ j, t0 j = if (j 1).val = (j 0).val + 1 then -1 else 0)
    (g : Fin 4095 → EReal)
    (hg : ∀ k : Fin 4095, g k = (a0 (ix2 (⟨k.val, by have := k.isLt; omega⟩ : Fin 4096) (⟨k.val + 1, by have := k.isLt; omega⟩ : Fin 4096)) : EReal)) :
    ((a1 (ix1 (0 : Fin 4096)) : EReal) + (a2 (ix1 (⟨4095, by norm_num⟩ : Fin 4096)) : EReal)) + (0 + ∑ k, g k)
      = -(((0 + ∑ j, (a1 j : EReal) * t1 j) + (0 + ∑ j, (a2 j : EReal) * t2 j)) + (0 + ∑ j, (a0 j : EReal) * t0 j)) := by
  have c1 : ∀ j, (a1 j : EReal) * t1 j = ((a1 j * (if (j 0).val = (0 : Fin 4096).val then (-1 : ℝ) else 0) : ℝ) : EReal) := fun j => by
    rw [ht1 j, EReal.coe_mul]; congr 1; show _ = ((if (j 0).val = 0 then (-1 : ℝ) else 0 : ℝ) : EReal); split_ifs <;> simp
  have c2 : ∀ j, (a2 j : EReal) * t2 j = ((a2 j * (if (j 0).val = (⟨4095, by norm_num⟩ : Fin 4096).val then (-1 : ℝ) else 0) : ℝ) : EReal) := fun j => by
    rw [ht2 j, EReal.coe_mul]; congr 1; show _ = ((if (j 0).val = 4095 then (-1 : ℝ) else 0 : ℝ) : EReal); split_ifs <;> simp
  have c0 : ∀ j, (a0 j : EReal) * t0 j = ((a0 j * (if (j 1).val = (j 0).val + 1 then (-1 : ℝ) else 0) : ℝ) : EReal) := fun j => by
    rw [ht0 j, EReal.coe_mul]; congr 1; split_ifs <;> simp
  rw [Finset.sum_congr rfl fun j _ => c1 j, Finset.sum_congr rfl fun j _ => c2 j, Finset.sum_congr rfl fun j _ => c0 j,
    Finset.sum_congr rfl fun k _ => hg k, ← coe_sum, ← coe_sum, ← coe_sum, ← coe_sum, sum_pick, sum_pick, sum_superdiag]
  rw [zero_add, zero_add, zero_add, zero_add, ← EReal.coe_add, ← EReal.coe_add, ← EReal.coe_add, ← EReal.coe_add, ← EReal.coe_neg]
  congr 1
  ring

end Cert.GoldLaw
-- ==== Proof.KernelGold.lean ====
/-
  The kernel's second result equals the reference's where the float inputs are finite. Read at its one index the kernel's
  term is start 0 + end 4095 + (0 + ∑ k < 4095, bigram (k, k + 1)): the two one-entry slices read entries 0 and 4095, and
  the gather's index pair k is (k, k + 1), in range, so no clamping moves it. The reference's is minus the three sums
  weighted by the indicator tables; for real entries the two agree.
-/
import proofs.«146345_j45019847197007_2_alg».proof.Proof.KernelHostGold
import proofs.«146345_j45019847197007_2_alg».proof.Proof.RefGold
import proofs.«146345_j45019847197007_2_alg».proof.Proof.GoldLaw
import proofs.«146345_j45019847197007_2_alg».proof.Proof.LibPointIndex
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.HostValue

open Cert.KernelIdeal Cert.KernelIdeal.Gen

/-- The host's sum of a whole array into a scalar, from the zero word: zero plus the sum of all entries. -/
theorem reduceAdd_zero_apply {s : Shape} {axes : List (Fin s.rank)} (x : FVec Ideal s .f32)
    (h' : s.ReducesTo axes (⟨0, ![]⟩ : Shape)) (hu : 0 < (⟨0, ![]⟩ : Shape).numel) (i : (⟨0, ![]⟩ : Shape).Idx) :
    Host.reduceAdd x (constant (F := Ideal) (⟨0, ![]⟩ : Shape) .f32 0x00000000#32) h' hu i = 0 + ∑ j : s.Idx, x j := by
  have e : Host.reduceAdd x (constant (F := Ideal) (⟨0, ![]⟩ : Shape) .f32 0x00000000#32) h' hu i
      = (constant (F := Ideal) (⟨0, ![]⟩ : Shape) .f32 0x00000000#32) (Shape.Idx.first hu) + ∑ j : s.Idx, x j := by
    simp only [Host.reduceAdd, Ideal.hostReduceAdd_def]
    exact Ideal.hostReduceAdd_total h' (fun b => b.elim0) x _ i
  rw [e]
  exact congrArg (· + ∑ j : s.Idx, x j) Ideal.ofBits_zero_f32

/-- The kernel's second result at its index. -/
theorem goldTerm_apply (x0 : FVec Ideal S4096x4096 .f32) (x1 x2 : FVec Ideal S4096 .f32) (i : S_.Idx) :
    goldTerm x0 x1 x2 i = (x1 (ix1 (0 : Fin 4096)) + x2 (ix1 (⟨4095, by norm_num⟩ : Fin 4096)))
      + (0 + ∑ k : Fin 4095, x0 (ix2 (⟨k.val, by have := k.isLt; omega⟩ : Fin 4096) (⟨k.val + 1, by have := k.isLt; omega⟩ : Fin 4096))) := by
  have hi : (S_.rowMajor i).val = 0 := by
    have h : (S_.rowMajor i).val < 1 := (S_.rowMajor i).isLt
    omega
  unfold goldTerm
  refine (addf_apply _ _ _).trans (congrArg₂ (· + ·) ((addf_apply _ _ _).trans (congrArg₂ (· + ·) ?_ ?_)) ?_)
  · refine (shapeCast_apply _ shapeCasts_S1_S_ i (ix1 (0 : Fin 1)) (by rw [Shape.rowMajor_val_one, hi]; rfl)).trans ?_
    exact extractStridedSlice_apply ![0] x1 slices_S4096_S1_0 (ix1 (0 : Fin 1)) (ix1 (0 : Fin 4096))
      (fun a => by match a with | ⟨0, _⟩ => rfl)
  · refine (shapeCast_apply _ shapeCasts_S1_S_ i (ix1 (0 : Fin 1)) (by rw [Shape.rowMajor_val_one, hi]; rfl)).trans ?_
    exact extractStridedSlice_apply ![4095] x2 slices_S4096_S1_4095 (ix1 (0 : Fin 1)) (ix1 (⟨4095, by norm_num⟩ : Fin 4096))
      (fun a => by match a with | ⟨0, _⟩ => rfl)
  · refine (reduceAdd_zero_apply _ reducesTo_S4095_S_d0 h_S_ i).trans (congrArg (0 + ·) ?_)
    refine (GoldLaw.sum_idx1 _).trans (Finset.sum_congr rfl fun k _ => ?_)
    have hk := k.isLt
    refine (LibPointIndex.pointGather_apply gather_S4096x4096_S4095x2_S4095_n_01_n_n_01_1_11_wf x0
      (Cert.ReferenceIdeal.Read.val_main_v22 (F := Ideal)) k (⟨k.val, by omega⟩ : Fin 4096) (⟨1 + k.val, by omega⟩ : Fin 4096)
      ?_ ?_).trans (congrArg x0 (congrArg₂ ix2 rfl (Fin.ext (by show 1 + k.val = k.val + 1; omega))))
    · rw [Cert.ReferenceIdeal.GoldValue.pairs_left k, Cert.ReferenceIdeal.GoldValue.toInt_ofNat_small _ (by omega)]
    · rw [Cert.ReferenceIdeal.GoldValue.pairs_right k, Cert.ReferenceIdeal.GoldValue.toInt_ofNat_small _ (by omega)]

/-- Where every float entry is a real number the kernel's second result is the reference's. -/
theorem gold_eq (x0 : FVec Ideal S4096x4096 .f32) (x1 x2 : FVec Ideal S4096 .f32)
    (h0 : ∀ j, ∃ r : ℝ, x0 j = (r : EReal)) (h1 : ∀ j, ∃ r : ℝ, x1 j = (r : EReal)) (h2 : ∀ j, ∃ r : ℝ, x2 j = (r : EReal)) :
    goldTerm x0 x1 x2 = Cert.ReferenceIdeal.Read.val_main_v33 (F := Ideal) x0 x1 x2 := by
  choose a0 ha0 using h0
  choose a1 ha1 using h1
  choose a2 ha2 using h2
  obtain rfl : x0 = fun j => (a0 j : EReal) := funext ha0
  obtain rfl : x1 = fun j => (a1 j : EReal) := funext ha1
  obtain rfl : x2 = fun j => (a2 j : EReal) := funext ha2
  funext i
  rw [goldTerm_apply, Cert.ReferenceIdeal.GoldValue.second_apply]
  exact GoldLaw.gold a0 a1 a2 (Cert.ReferenceIdeal.Read.val_main_v24 (F := Ideal)) (Cert.ReferenceIdeal.Read.val_main_v3 (F := Ideal))
    (Cert.ReferenceIdeal.Read.val_main_v6 (F := Ideal)) Cert.ReferenceIdeal.GoldValue.first_apply
    Cert.ReferenceIdeal.GoldValue.last_apply Cert.ReferenceIdeal.GoldValue.table_apply _ (fun k => rfl)

end Cert.KernelIdeal.HostValue

end
-- ==== Proof.RefLoss.lean ====
/-
  The reference's first result, read at the ideal instance: the three arguments' sums weighted by the three histogram
  tables the reference scatters from the samples (each a function of the integer samples alone, never opened here):
  (0 + ∑ start · S) + (0 + ∑ end · E) + (0 + ∑ bigram · T).
-/
import proofs.«146345_j45019847197007_2_alg».proof.Proof.Gen.ReferenceIdeal.Read
import Idealize.ShloMosaic.PureOps.Ideal.Laws

noncomputable section

open Idealize.ShloMosaic

namespace Cert.ReferenceIdeal.LossValue

open Cert.ReferenceIdeal Cert.ReferenceIdeal.Gen Cert.ReferenceIdeal.Read

theorem first_apply (x0 : (⟨S4096x4096, .f32⟩ : BufTy).Contents (Elt Ideal)) (x1 x2 : (⟨S4096, .f32⟩ : BufTy).Contents (Elt Ideal))
    (x3 : (⟨S2048x4096, .i32⟩ : BufTy).Contents (Elt Ideal)) (i : S_.Idx) :
    val_main_v80 (F := Ideal) x0 x1 x2 x3 i
      = ((0 + ∑ j : S4096.Idx, x1 j * val_main_v43 (F := Ideal) x3 j) + (0 + ∑ j : S4096.Idx, x2 j * val_main_v53 (F := Ideal) x3 j))
          + (0 + ∑ j : S4096x4096.Idx, x0 j * val_main_v72 (F := Ideal) x3 j) := by
  rw [val_main_v80_apply, val_main_v77_apply, val_main_v74_apply, val_main_v76_apply, val_main_v79_apply,
    val_main_cst_24_apply, val_main_cst_25_apply, val_main_cst_26_apply]
  simp only [Ideal.ofBits_def, Ideal.ofBits_zero_f32, Ideal.addf_def, val_main_v73_apply, val_main_v75_apply,
    val_main_v78_apply, Ideal.mulf_def]

end Cert.ReferenceIdeal.LossValue

end
-- ==== Proof.KernelTail.lean ====
/-
  The kernel's run, read. After the region the host adds up the kernel's [2, 8, 128] result and adds the two weighted
  vector sums. The result array's sum is the sum of the whole table of products bigram · T (the accumulation regrouped),
  the staged table T and the two histogram vectors are the reference's, and the arguments are as launched: so the first
  result is the reference's first result, term for term. The second result is computed before the region and kept.
-/
import proofs.«146345_j45019847197007_2_alg».proof.Proof.Gen.KernelIdeal.Frame
import proofs.«146345_j45019847197007_2_alg».proof.Proof.KernelFinal
import proofs.«146345_j45019847197007_2_alg».proof.Proof.KernelHostTable
import proofs.«146345_j45019847197007_2_alg».proof.Proof.KernelHostVecs
import proofs.«146345_j45019847197007_2_alg».proof.Proof.KernelGold
import proofs.«146345_j45019847197007_2_alg».proof.Proof.RefLoss
import Idealize.ShloMosaic.Lib.Pipeline.Value
import Idealize.ShloMosaic.Lib.StableHlo.Run
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.TailValue

open Cert.KernelIdeal Cert.KernelIdeal.Gen Cert.KernelIdeal.TileValue Cert.KernelIdeal.HostValue

variable (m : (ℓ : Loc nD τ sig) → Buf (Elt Ideal) ℓ)

/-- The first result's formula at its index: three host sums from the zero word, added. -/
theorem first_law (x1 x2 g1 g2 : FVec Ideal S4096 .f32) (O : FVec Ideal S2x8x128 .f32) (i : S_.Idx) :
    addf (F := Ideal)
      (addf (F := Ideal) (Host.reduceAdd (F := Ideal) (mulf x1 g1) (constant (F := Ideal) S_ .f32 0x00000000#32) reducesTo_S4096_S_d0 h_S_)
        (Host.reduceAdd (F := Ideal) (mulf x2 g2) (constant (F := Ideal) S_ .f32 0x00000000#32) reducesTo_S4096_S_d0 h_S_))
      (Host.reduceAdd (F := Ideal) O (constant (F := Ideal) S_ .f32 0x00000000#32) reducesTo_S2x8x128_S_d0_1_2 h_S_) i
      = ((0 + ∑ j : S4096.Idx, x1 j * g1 j) + (0 + ∑ j : S4096.Idx, x2 j * g2 j)) + (0 + ∑ j : S2x8x128.Idx, O j) := by
  refine (addf_apply _ _ i).trans (congrArg₂ (· + ·) ((addf_apply _ _ i).trans (congrArg₂ (· + ·) ?_ ?_)) ?_)
  · exact reduceAdd_zero_apply (mulf x1 g1) reducesTo_S4096_S_d0 h_S_ i
  · exact reduceAdd_zero_apply (mulf x2 g2) reducesTo_S4096_S_d0 h_S_ i
  · exact reduceAdd_zero_apply O reducesTo_S2x8x128_S_d0_1_2 h_S_ i

/-- A buffer that is no array of the pipeline holds after the region what it held at its entry. -/
theorem kept (c : Dev nD) (b : Ref sig .tc) (hb : ∀ w, Pipeline.arrRef spec0 w ≠ b) :
    Pipeline.withArrays (cfgs 0).spec c (V0 m c) (fun w => (dats m 0 c).arrAt w (cfgs 0).N) (Proc.devRef .tc b) = V m c b :=
  Pipeline.withArrays_of_ne _ c (V0 m c) _ b hb

/-- The kernel's result array after the region. -/
theorem out_after (c : Dev nD) :
    Pipeline.withArrays (cfgs 0).spec c (V0 m c) (fun w => (dats m 0 c).arrAt w (cfgs 0).N) (Proc.devRef .tc main_v87) = outArr m c :=
  (Pipeline.withArrays_arr spec0 launch0.win.arr_inj c _ _ 2).trans (final_out m c)

set_option maxHeartbeats 4000000 in
/-- The first result after the host's last lines is the reference's first result of the arguments. -/
theorem tail_first (c : Dev nD) :
    (Pipeline.afterTail₀ cfgs (dats m) 0 (V0 m) [hostOps1] c main_v94 : S_.Idx → EReal)
      = Cert.ReferenceIdeal.Read.val_main_v80 (F := Ideal) (m ((c.tc : Thread nD τ).loc main_arg0))
          (m ((c.tc : Thread nD τ).loc main_arg1)) (m ((c.tc : Thread nD τ).loc main_arg2)) (m ((c.tc : Thread nD τ).loc main_arg3)) := by
  unfold Pipeline.afterTail₀
  show StableHlo.after hostOps1 _ (Proc.devRef .tc main_v94) = _
  after_results
  rw [kept m c main_arg1 (by decide), kept m c main_v54 (by decide), kept m c main_arg2 (by decide),
    kept m c main_v67 (by decide), out_after m c, V_main_arg1 m c, V_main_arg2 m c, first_hist m c, last_hist m c]
  funext i
  rw [first_law, Cert.ReferenceIdeal.LossValue.first_apply, sum_outArr m c]
  refine congrArg (fun z => _ + (0 + z)) (Finset.sum_congr rfl fun j _ => ?_)
  unfold prodTable mulTable
  rw [V_main_arg0 m c, staged_table m c]

set_option maxHeartbeats 4000000 in
/-- The second result is kept by the region and the host's last lines. -/
theorem tail_second (c : Dev nD) :
    (Pipeline.afterTail₀ cfgs (dats m) 0 (V0 m) [hostOps1] c main_v41 : S_.Idx → EReal)
      = goldTerm (m ((c.tc : Thread nD τ).loc main_arg0)) (m ((c.tc : Thread nD τ).loc main_arg1)) (m ((c.tc : Thread nD τ).loc main_arg2)) := by
  unfold Pipeline.afterTail₀
  show StableHlo.after hostOps1 _ (Proc.devRef .tc main_v41) = _
  after_results
  exact (kept m c main_v41 (by decide)).trans (second_result m c)

/-- The kernel's run: every weakly fair execution terminates with the two results at these terms of the arguments and the
    arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v94)
        = Cert.ReferenceIdeal.Read.val_main_v80 (F := Ideal) (m ((c.tc : Thread nD τ).loc main_arg0))
          (m ((c.tc : Thread nD τ).loc main_arg1)) (m ((c.tc : Thread nD τ).loc main_arg2)) (m ((c.tc : Thread nD τ).loc main_arg3))
      ∧ r.2.mem ((c.tc : Thread nD τ).loc main_v41)
        = goldTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v94 (Pipeline.mem_restRefs_of main_v94 (by decide) (by decide))).trans (tail_first m c),
      ((h c).2 main_v41 (Pipeline.mem_restRefs_of main_v41 (by decide) (by decide))).trans (tail_second m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.TailValue

end
-- ==== Proof.FiniteInputs.lean ====
/-
  The precondition says that every float input is finite. The printed predicate is the conjunction of three
  "all |x| < +∞" tests, one per float argument; where it is all ones every entry of the three arrays is therefore
  a real number (an extended real that is neither infinity).
-/
import proofs.«146345_j45019847197007_2_alg».proof.Pre_finite_inputs
import Idealize.ShloMosaic.PureOps.Ideal.Laws
import Idealize.ShloMosaic.Lib.ReduceAll
import Idealize.ShloMosaic.Lib.Affine
import Idealize.ShloMosaic.Lib.ValueIdx
import Idealize.ShloMosaic.Lib.Pipeline.Value

noncomputable section

namespace Cert.FiniteInputs

open Idealize.ShloMosaic Idealize.ShloMosaic.ValueIdx

instance : Subsingleton Cert.Pre_finite_inputs.S_.Idx := ⟨fun _ _ => funext fun d => d.elim0⟩

/-- An extended real whose absolute value is strictly below +∞ is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => exfalso; revert h; simp [Ideal.cmp]
  | coe r => exact ⟨r, rfl⟩
  | top => exfalso; revert h; simp [Ideal.cmp]

variable [Cert.Pre_finite_inputs.Facts]

open Cert.Pre_finite_inputs Cert.Pre_finite_inputs.Facts

/-- Where the precondition holds, every entry of the three float arguments is a real number. -/
theorem entries_real (a0 : FVec Ideal S4096x4096 .f32) (a1 a2 : FVec Ideal S4096 .f32) (a3 : IVec S2048x4096 32)
    (h : fn (F := Ideal) a0 a1 a2 a3 = fun _ => 1#1) :
    (∀ j, ∃ r : ℝ, a0 j = (r : EReal)) ∧ (∀ j, ∃ r : ℝ, a1 j = (r : EReal)) ∧ (∀ j, ∃ r : ℝ, a2 j = (r : EReal)) := by
  have h0 := congrFun h ix0
  dsimp only [fn] at h0
  obtain ⟨h01, h2⟩ := IntOp.andi_eq_one.mp (show IntOp.andi _ _ = 1#1 from h0)
  obtain ⟨h00, h1⟩ := IntOp.andi_eq_one.mp (show IntOp.andi _ _ = 1#1 from h01)
  refine ⟨fun j => ?_, fun j => ?_, fun j => ?_⟩
  · exact real_of_abs_lt_top _ (Host.reduce_andi_all _ _ reducesTo_S4096x4096_S_d0_1 h_S_ ix0 h00 j)
  · exact real_of_abs_lt_top _ (Host.reduce_andi_all _ _ reducesTo_S4096_S_d0 h_S_ ix0 h1 j)
  · exact real_of_abs_lt_top _ (Host.reduce_andi_all _ _ reducesTo_S4096_S_d0 h_S_ ix0 h2 j)

end Cert.FiniteInputs

end
-- ==== Proof.lean ====
/-
  A loss over word bigrams and its "gold" score: kernel against reference, on the extended reals.

  Both programs build, from the integer samples, a histogram table T over word pairs and two histogram vectors S, E over
  first and last words (scatter-adds of 1/2048 onto indicator tables of the identity order), by the same host operations.
  The first result is  ∑ start · S + ∑ end · E + ∑ bigram · T.  The reference takes the last sum in one reduction; the
  kernel streams the two 4096 × 4096 arrays through a grid of 2 × 4 points, tile by tile of 512 rows, each point adding its
  tile's sum of products onto one accumulator entry of its core's output block (reset at the core's first point), and the
  host adds up the [2, 8, 128] output, which is zero off the two accumulator entries. Regrouping a finite sum needs only
  that addition is commutative and associative, so this half holds for all extended reals.
  The second result is, in the reference, minus the three sums of the arguments weighted by the identity order's indicator
  tables (-1 at index 0, at index 4095, on the superdiagonal); in the kernel, start 0 + end 4095 + the sum of a gather of
  the superdiagonal. These agree for finite entries — on the extended reals negation does not distribute over a sum of
  opposite infinities — so here the precondition (every float input finite) is used.
  The three programs' frames are the generated frame certificates and the reference's generated run; the idealization
  rewrote nothing, so it is preserved trivially.
-/
import proofs.«146345_j45019847197007_2_alg».proof.Defs
import proofs.«146345_j45019847197007_2_alg».proof.Proof.Gen.Kernel
import proofs.«146345_j45019847197007_2_alg».proof.Proof.Gen.Kernel.Skeleton
import proofs.«146345_j45019847197007_2_alg».proof.Proof.Gen.Kernel.Launch
import proofs.«146345_j45019847197007_2_alg».proof.Proof.Gen.Kernel.Points
import proofs.«146345_j45019847197007_2_alg».proof.Proof.Gen.Kernel.Frame
import proofs.«146345_j45019847197007_2_alg».proof.Proof.Gen.KernelIdeal
import proofs.«146345_j45019847197007_2_alg».proof.Proof.Gen.KernelIdeal.Skeleton
import proofs.«146345_j45019847197007_2_alg».proof.Proof.Gen.KernelIdeal.Launch
import proofs.«146345_j45019847197007_2_alg».proof.Proof.Gen.KernelIdeal.Points
import proofs.«146345_j45019847197007_2_alg».proof.Proof.Gen.KernelIdeal.Frame
import proofs.«146345_j45019847197007_2_alg».proof.Proof.Gen.ReferenceIdeal
import proofs.«146345_j45019847197007_2_alg».proof.Proof.Gen.Pre_finite_inputs
import proofs.«146345_j45019847197007_2_alg».proof.Proof.Gen.ReferenceIdeal.Read
import proofs.«146345_j45019847197007_2_alg».proof.Proof.KernelTail
import proofs.«146345_j45019847197007_2_alg».proof.Proof.FiniteInputs
import Idealize.ShloMosaic.Adequacy
import Idealize.ShloMosaic.Init

noncomputable section

namespace Cert.Proof

open Idealize.ShloMosaic Idealize.SL.Sem

/-- The kernel as printed runs and keeps its arguments: the generated frame certificate. -/
theorem frame_kernel : Cert.frame_Kernel := fun m ρ _ => Cert.Kernel.Gen.frame m ρ

/-- The idealized kernel runs and keeps its arguments: the generated frame certificate. -/
theorem frame_kernelIdeal : Cert.frame_KernelIdeal := fun m ρ _ => Cert.KernelIdeal.Gen.frame m ρ

/-- The idealized reference runs and keeps its arguments: its generated run, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both idealized programs end with the same two results: the first is the reference's first result as a function of
    the arguments on both sides (the kernel's accumulation regrouped), the second agrees because the entries are finite. -/
theorem algebraic : Cert.algebraic_KernelIdeal_ReferenceIdeal := by
  intro m ρ m' ρ' hpre hagree
  refine ⟨fun c => Cert.ReferenceIdeal.Read.val_main_v80 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => Cert.KernelIdeal.HostValue.goldTerm
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.TailValue.run m ρ, ?_⟩
  refine (θ_run Cert.ReferenceIdeal.defs _ _).mono (fun r h c => ?_) (Cert.ReferenceIdeal.Value.run (F := Ideal) m' ρ')
  obtain ⟨e0, e1, e2, e3⟩ := hagree c
  obtain ⟨h0, h1, h2⟩ := Cert.FiniteInputs.entries_real _ _ _ _ (hpre c)
  refine ⟨(h c).1.trans ?_, (h c).2.1.trans ?_, (h c).2.2⟩
  · rw [Cert.ReferenceIdeal.Read.val_main_v80_eq, e0, e1, e2, e3]
  · rw [e0, e1, e2]
    exact (Cert.ReferenceIdeal.Read.val_main_v33_eq _ _ _).trans (Cert.KernelIdeal.HostValue.gold_eq _ _ _ h0 h1 h2).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
